-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_tau" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x128x64x64 : Shape := ⟨4, ![2, 128, 64, 64]⟩
abbrev S2x64x64 : Shape := ⟨3, ![2, 64, 64]⟩
abbrev S_ : Shape := ⟨0, ![]⟩

class Facts : Prop where
  bcast_S_S2x128x64x64 : S_.BroadcastsInDim S2x128x64x64 (![] : Fin 0 → Fin S2x128x64x64.rank)
  reducesTo_S2x128x64x64_S_d0_1_2_3 : S2x128x64x64.ReducesTo [0, 1, 2, 3] S_
  h_S_ : 0 < S_.numel

variable [Facts]

def fn {F : FTy → Type} [FloatOps F] (main_arg0 : FVec F S2x128x64x64 .f32) (main_arg1 : FVec F S2x128x64x64 .f32) (main_arg2 : IVec S2x64x64 32) (main_arg3 : IVec S2x64x64 32) : IVec S_ 1 :=
  let main_v0 : FVec F S2x128x64x64 .f32 := Host.absf main_arg0
  let main_cst : FVec F S_ .f32 := constant S_ .f32 0x7F800000#32
  let main_v1 : FVec F S2x128x64x64 .f32 := broadcastInDim S2x128x64x64 ![] bcast_S_S2x128x64x64 main_cst
  let main_v2 : IVec S2x128x64x64 1 := cmpf .olt main_v0 main_v1
  let main_c : IVec S_ 1 := constantI S_ 1 1#1
  let main_v3 : IVec S_ 1 := (fun x v => Host.reduce IntOp.andi x v reducesTo_S2x128x64x64_S_d0_1_2_3 h_S_) main_v2 main_c
  let main_v4 : FVec F S2x128x64x64 .f32 := Host.absf main_arg1
  let main_cst_0 : FVec F S_ .f32 := constant S_ .f32 0x7F800000#32
  let main_v5 : FVec F S2x128x64x64 .f32 := broadcastInDim S2x128x64x64 ![] bcast_S_S2x128x64x64 main_cst_0
  let main_v6 : IVec S2x128x64x64 1 := cmpf .olt main_v4 main_v5
  let main_c_1 : IVec S_ 1 := constantI S_ 1 1#1
  let main_v7 : IVec S_ 1 := (fun x v => Host.reduce IntOp.andi x v reducesTo_S2x128x64x64_S_d0_1_2_3 h_S_) main_v6 main_c_1
  let main_v8 : IVec S_ 1 := andi main_v3 main_v7
  main_v8
-- ==== Kernel.lean ====
abbrev S2x128x64x64 : Shape := ⟨4, ![2, 128, 64, 64]⟩
abbrev S2x64x64 : Shape := ⟨3, ![2, 64, 64]⟩
abbrev S2x64x64x128 : Shape := ⟨4, ![2, 64, 64, 128]⟩
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S1024x128 : Shape := ⟨2, ![1024, 128]⟩
abbrev S2048x128 : Shape := ⟨2, ![2048, 128]⟩
abbrev S1x1024 : Shape := ⟨2, ![1, 1024]⟩
abbrev S1x2048 : Shape := ⟨2, ![1, 2048]⟩
abbrev S1024x2048 : Shape := ⟨2, ![1024, 2048]⟩
abbrev S1024x1 : Shape := ⟨2, ![1024, 1]⟩
abbrev S2048 : Shape := ⟨1, ![2048]⟩

abbrev nBuf : Space → Nat
  | .hbm => 48
  | .vmem => 12
  | .smem => 0
  | _ => 0

abbrev bufTy : (tb : Table) → Fin (tcTables nBuf tb) → BufTy
  | .hbm, ⟨0, _⟩ => ⟨S2x128x64x64, .f32⟩
  | .hbm, ⟨1, _⟩ => ⟨S2x128x64x64, .f32⟩
  | .hbm, ⟨2, _⟩ => ⟨S2x64x64, .i32⟩
  | .hbm, ⟨3, _⟩ => ⟨S2x64x64, .i32⟩
  | .hbm, ⟨4, _⟩ => ⟨S2x64x64x128, .f32⟩
  | .hbm, ⟨5, _⟩ => ⟨S8192x128, .f32⟩
  | .hbm, ⟨6, _⟩ => ⟨S8192x128, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x128, .f32⟩
  | .hbm, ⟨15, _⟩ => ⟨S8192x128, .f32⟩
  | .hbm, ⟨16, _⟩ => ⟨S2x64x64x128, .f32⟩
  | .hbm, ⟨17, _⟩ => ⟨S8192x128, .f32⟩
  | .hbm, ⟨18, _⟩ => ⟨S8192x128, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x128, .f32⟩
  | .hbm, ⟨27, _⟩ => ⟨S8192x128, .f32⟩
  | .hbm, ⟨28, _⟩ => ⟨S8192x128, .bf16⟩
  | .hbm, ⟨29, _⟩ => ⟨S8192x128, .bf16⟩
  | .hbm, ⟨30, _⟩ => ⟨S8192, .i32⟩
  | .hbm, ⟨31, _⟩ => ⟨S8192, .i32⟩
  | .hbm, ⟨32, _⟩ => ⟨S1x8192, .i32⟩
  | .hbm, ⟨33, _⟩ => ⟨S1x8192, .i32⟩
  | .hbm, ⟨34, _⟩ => ⟨S1x8192, .f32⟩
  | .hbm, ⟨35, _⟩ => ⟨S1x8192, .f32⟩
  | .hbm, ⟨36, _⟩ => ⟨S8192, .f32⟩
  | .hbm, ⟨37, _⟩ => ⟨S8192, .f32⟩
  | .hbm, ⟨38, _⟩ => ⟨S_, .f32⟩
  | .hbm, ⟨39, _⟩ => ⟨S8192, .f32⟩
  | .hbm, ⟨40, _⟩ => ⟨S8192, .f32⟩
  | .hbm, ⟨41, _⟩ => ⟨S8192, .f32⟩
  | .hbm, ⟨42, _⟩ => ⟨S8192, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .local _ .vmem, ⟨0, _⟩ => ⟨S1024x128, .bf16⟩
  | .local _ .vmem, ⟨1, _⟩ => ⟨S1024x128, .bf16⟩
  | .local _ .vmem, ⟨2, _⟩ => ⟨S2048x128, .bf16⟩
  | .local _ .vmem, ⟨3, _⟩ => ⟨S2048x128, .bf16⟩
  | .local _ .vmem, ⟨4, _⟩ => ⟨S1x1024, .i32⟩
  | .local _ .vmem, ⟨5, _⟩ => ⟨S1x1024, .i32⟩
  | .local _ .vmem, ⟨6, _⟩ => ⟨S1x2048, .i32⟩
  | .local _ .vmem, ⟨7, _⟩ => ⟨S1x2048, .i32⟩
  | .local _ .vmem, ⟨8, _⟩ => ⟨S1x2048, .f32⟩
  | .local _ .vmem, ⟨9, _⟩ => ⟨S1x2048, .f32⟩
  | .local _ .vmem, ⟨10, _⟩ => ⟨S1x2048, .f32⟩
  | .local _ .vmem, ⟨11, _⟩ => ⟨S1x2048, .f32⟩
  | _, _ => ⟨S2x128x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_call0_v2 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call1_v0 : Ref sig .tc := ⟨.hbm, 18, rfl⟩
abbrev main_call1_cst : Ref sig .tc := ⟨.hbm, 19, rfl⟩
abbrev main_call1_v1 : Ref sig .tc := ⟨.hbm, 20, rfl⟩
abbrev main_call1_v2 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20_0 : Ref sig .tc := ⟨.hbm, 34, rfl⟩
abbrev main_v20_1 : Ref sig .tc := ⟨.hbm, 35, rfl⟩
abbrev main_v21 : Ref sig .tc := ⟨.hbm, 36, rfl⟩
abbrev main_v22 : Ref sig .tc := ⟨.hbm, 37, rfl⟩
abbrev main_cst_1 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_2 : Ref sig .tc := ⟨.hbm, 43, rfl⟩
abbrev main_v27 : Ref sig .tc := ⟨.hbm, 44, rfl⟩
abbrev main_cst_3 : Ref sig .tc := ⟨.hbm, 45, rfl⟩
abbrev main_v28 : Ref sig .tc := ⟨.hbm, 46, rfl⟩
abbrev main_v29 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  transposes_S2x128x64x64_S2x64x64x128_0_2_3_1 : S2x128x64x64.Transposes [0, 2, 3, 1] S2x64x64x128
  shapeCasts_S2x64x64x128_S8192x128 : S2x64x64x128.ShapeCasts S8192x128
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  bitsLt_bf16_f32 : FTy.bits .bf16 < FTy.bits .f32
  shapeCasts_S2x64x64_S8192 : S2x64x64.ShapeCasts S8192
  shapeCasts_S8192_S1x8192 : S8192.ShapeCasts S1x8192
  inb_S1x2048_S1x2048_0_0 : ∀ a, (![0, 0] : Fin 2 → Nat) a + S1x2048.size a ≤ S1x2048.size a
  h_S1x2048 : 0 < S1x2048.numel
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  transposes_S1x1024_p1_0_S1024x1 : S1x1024.Transposes [1, 0] S1024x1
  shapeCasts_S1x2048_S1x2048 : S1x2048.ShapeCasts S1x2048
  broadcasts_S1024x1_S1024x2048 : S1024x1.Broadcasts S1024x2048
  broadcasts_S1x2048_S1024x2048 : S1x2048.Broadcasts S1024x2048
  reduces_S1024x2048_S2048 : S1024x2048.Reduces [0] S2048
  shapeCasts_S2048_S1x2048 : S2048.ShapeCasts S1x2048
  shapeCasts_S1x8192_S8192 : S1x8192.ShapeCasts S8192
  bcast_S_S8192 : S_.BroadcastsInDim S8192 (![] : Fin 0 → Fin S8192.rank)
  reducesTo_S8192_S_d0 : S8192.ReducesTo [0] S_
  dot_S1024x128_S2048x128_S1024x2048_1_1_0_0_n_n_wf : DotDims.WF S1024x128 S2048x128 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .bf16 = 32 ∨ (Rect.block (s := S8192x128) S1024x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S8192x128.size a
  hwx0_1 : ∀ i : grid0.Coords, EltTy.bits .bf16 = 32 ∨ (Rect.block (s := S8192x128) S2048x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x8192.size a
  hwx0_2 : ∀ i : grid0.Coords, EltTy.bits .i32 = 32 ∨ (Rect.block (s := S1x8192) S1x1024.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x8192.size a
  hwx0_3 : ∀ i : grid0.Coords, EltTy.bits .i32 = 32 ∨ (Rect.block (s := S1x8192) S1x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x8192.size a
  hwx0_4 : ∀ i : grid0.Coords, EltTy.bits .f32 = 32 ∨ (Rect.block (s := S1x8192) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x8192.size a
  hwx0_5 : ∀ i : grid0.Coords, EltTy.bits .f32 = 32 ∨ (Rect.block (s := S1x8192) S1x2048.size (cc0_transform_5 i) (hinb0_5 i)).WholeWords (EltTy.packing .f32)

variable [Facts₀]

def dot_S1024x128_S2048x128_S1024x2048_1_1_0_0_n_n : DotDims S1024x128 S2048x128 S1024x2048 where
  lhsContracting := [1]
  rhsContracting := [1]
  lhsNonContracting := [0]
  rhsNonContracting := [0]
  lhsBatch := []
  rhsBatch := []
  wf := dot_S1024x128_S2048x128_S1024x2048_1_1_0_0_n_n_wf

abbrev win0_0 : Pipeline.Window sig grid0 :=
  Pipeline.Window.ofSpec (Memref.whole main_v15) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v20_0) S1x2048.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v20_1) S1x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x128x64x64 : Shape := ⟨4, ![2, 128, 64, 64]⟩
abbrev S2x64x64 : Shape := ⟨3, ![2, 64, 64]⟩
abbrev S2x64x64x128 : Shape := ⟨4, ![2, 64, 64, 128]⟩
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S8192x8192 : Shape := ⟨2, ![8192, 8192]⟩
abbrev S1x8192 : Shape := ⟨2, ![1, 8192]⟩

abbrev nBuf : Space → Nat
  | .hbm => 61
  | .vmem => 0
  | .smem => 0
  | _ => 0

abbrev bufTy : (tb : Table) → Fin (tcTables nBuf tb) → BufTy
  | .hbm, ⟨0, _⟩ => ⟨S2x128x64x64, .f32⟩
  | .hbm, ⟨1, _⟩ => ⟨S2x128x64x64, .f32⟩
  | .hbm, ⟨2, _⟩ => ⟨S2x64x64, .i32⟩
  | .hbm, ⟨3, _⟩ => ⟨S2x64x64, .i32⟩
  | .hbm, ⟨4, _⟩ => ⟨S2x64x64x128, .f32⟩
  | .hbm, ⟨5, _⟩ => ⟨S8192x128, .f32⟩
  | .hbm, ⟨6, _⟩ => ⟨S8192x128, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x128, .f32⟩
  | .hbm, ⟨15, _⟩ => ⟨S8192x128, .f32⟩
  | .hbm, ⟨16, _⟩ => ⟨S2x64x64x128, .f32⟩
  | .hbm, ⟨17, _⟩ => ⟨S8192x128, .f32⟩
  | .hbm, ⟨18, _⟩ => ⟨S8192x128, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x128, .f32⟩
  | .hbm, ⟨27, _⟩ => ⟨S8192x128, .f32⟩
  | .hbm, ⟨28, _⟩ => ⟨S8192, .i32⟩
  | .hbm, ⟨29, _⟩ => ⟨S8192, .i32⟩
  | .hbm, ⟨30, _⟩ => ⟨S8192x8192, .f32⟩
  | .hbm, ⟨31, _⟩ => ⟨S_, .f32⟩
  | .hbm, ⟨32, _⟩ => ⟨S8192x8192, .f32⟩
  | .hbm, ⟨33, _⟩ => ⟨S8192x8192, .f32⟩
  | .hbm, ⟨34, _⟩ => ⟨S8192x8192, .f32⟩
  | .hbm, ⟨35, _⟩ => ⟨S1x8192, .i32⟩
  | .hbm, ⟨36, _⟩ => ⟨S8192x1, .i32⟩
  | .hbm, ⟨37, _⟩ => ⟨S8192x8192, .i32⟩
  | .hbm, ⟨38, _⟩ => ⟨S8192x8192, .i32⟩
  | .hbm, ⟨39, _⟩ => ⟨S8192x8192, .i1⟩
  | .hbm, ⟨40, _⟩ => ⟨S8192x8192, .f32⟩
  | .hbm, ⟨41, _⟩ => ⟨S_, .f32⟩
  | .hbm, ⟨42, _⟩ => ⟨S8192x8192, .f32⟩
  | .hbm, ⟨43, _⟩ => ⟨S8192x8192, .f32⟩
  | .hbm, ⟨44, _⟩ => ⟨S8192x8192, .f32⟩
  | .hbm, ⟨45, _⟩ => ⟨S_, .f32⟩
  | .hbm, ⟨46, _⟩ => ⟨S8192, .f32⟩
  | .hbm, ⟨47, _⟩ => ⟨S8192x8192, .f32⟩
  | .hbm, ⟨48, _⟩ => ⟨S_, .f32⟩
  | .hbm, ⟨49, _⟩ => ⟨S8192, .f32⟩
  | .hbm, ⟨50, _⟩ => ⟨S8192, .f32⟩
  | .hbm, ⟨51, _⟩ => ⟨S_, .f32⟩
  | .hbm, ⟨52, _⟩ => ⟨S8192, .f32⟩
  | .hbm, ⟨53, _⟩ => ⟨S8192, .f32⟩
  | .hbm, ⟨54, _⟩ => ⟨S8192, .f32⟩
  | .hbm, ⟨55, _⟩ => ⟨S8192, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | _, _ => ⟨S2x128x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_call0_v2 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call1_v0 : Ref sig .tc := ⟨.hbm, 18, rfl⟩
abbrev main_call1_cst : Ref sig .tc := ⟨.hbm, 19, rfl⟩
abbrev main_call1_v1 : Ref sig .tc := ⟨.hbm, 20, rfl⟩
abbrev main_call1_v2 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_1 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_2 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_3 : Ref sig .tc := ⟨.hbm, 45, rfl⟩
abbrev main_v29 : Ref sig .tc := ⟨.hbm, 46, rfl⟩
abbrev main_v30 : Ref sig .tc := ⟨.hbm, 47, rfl⟩
abbrev main_cst_4 : Ref sig .tc := ⟨.hbm, 48, rfl⟩
abbrev main_v31 : Ref sig .tc := ⟨.hbm, 49, rfl⟩
abbrev main_v32 : Ref sig .tc := ⟨.hbm, 50, rfl⟩
abbrev main_cst_5 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_6 : Ref sig .tc := ⟨.hbm, 56, rfl⟩
abbrev main_v37 : Ref sig .tc := ⟨.hbm, 57, rfl⟩
abbrev main_cst_7 : Ref sig .tc := ⟨.hbm, 58, rfl⟩
abbrev main_v38 : Ref sig .tc := ⟨.hbm, 59, rfl⟩
abbrev main_v39 : Ref sig .tc := ⟨.hbm, 60, rfl⟩

abbrev nD : Nat := 1
abbrev τ : Topo := Topo.v7x

variable {F : FTy → Type} [FloatOps F]

class Facts₀ : Prop where
  transposes_S2x128x64x64_S2x64x64x128_0_2_3_1 : S2x128x64x64.Transposes [0, 2, 3, 1] S2x64x64x128
  shapeCasts_S2x64x64x128_S8192x128 : S2x64x64x128.ShapeCasts S8192x128
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  shapeCasts_S2x64x64_S8192 : S2x64x64.ShapeCasts S8192
  bcast_S_S8192x8192 : S_.BroadcastsInDim S8192x8192 (![] : Fin 0 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S8192x1_S8192x8192_0_1 : S8192x1.BroadcastsInDim S8192x8192 (![0, 1] : Fin 2 → Fin S8192x8192.rank)
  reducesTo_S8192x8192_S8192_d0 : S8192x8192.ReducesTo [0] S8192
  bcast_S_S8192 : S_.BroadcastsInDim S8192 (![] : Fin 0 → Fin S8192.rank)
  reducesTo_S8192_S_d0 : S8192.ReducesTo [0] S_
  dot_S8192x128_S8192x128_S8192x8192_1_1_0_0_n_n_wf : DotDims.WF S8192x128 S8192x128 S8192x8192 [1] [1] [0] [0] [] []

variable [Facts₀]

def dot_S8192x128_S8192x128_S8192x8192_1_1_0_0_n_n : DotDims S8192x128 S8192x128 S8192x8192 where
  lhsContracting := [1]
  rhsContracting := [1]
  lhsNonContracting := [0]
  rhsNonContracting := [0]
  lhsBatch := []
  rhsBatch := []
  wf := dot_S8192x128_S8192x128_S8192x8192_1_1_0_0_n_n_wf

class Facts : Prop extends Facts₀ where

variable [Facts]
-- ==== Proof.Pieces.lean ====
/-
  What one run of the body leaves in the two accumulator rows, as a value.

  At a first reduction step the body fills both rows with zeros and then stores, over them, the zero row plus the
  step's masked column sums (numerator) and plus its plain column sums (denominator). At a later step it stores the
  row it found plus those sums. Each row is written whole by its last store, so what the row holds afterwards is
  that store's value, computed from the blocks the step was given.
-/
import proofs.«161251_j68083821576868_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem
open Idealize.ShloMosaic.Pipeline (Dat)

variable {F : FTy → Type} [FloatOps F] [Named F]

theorem hz : (![0, 0] : Fin 2 → Nat) = fun _ => 0 := funext fun a => by fin_cases a <;> rfl

/-- A later step's numerator row: the row found plus the step's masked column sums. -/
theorem later_nom (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S1x1024 .i32) (harg4 : arg4.IsWhole) (arg5 : Memref sig .tc .vmem S1x2048 .i32) (harg5 : arg5.IsWhole) (arg6 : Memref sig .tc .vmem S1x2048 .f32) (harg6 : arg6.IsWhole) (arg7 : Memref sig .tc .vmem S1x2048 .f32) (harg7 : arg7.IsWhole) (hc0 : ¬cond0_0 i)
    (x0 : Vec F S1024x128 .bf16) (x1 : Vec F S2048x128 .bf16) (x2 : Vec F S1x1024 .i32) (x3 : Vec F S1x2048 .i32) (xo4 : Vec F S1x2048 .f32) (xo5 : Vec F S1x2048 .f32) :
    out0_B_4 c i arg2 harg2 arg3 harg3 arg4 harg4 arg5 harg5 arg6 harg6 arg7 harg7 hc0 x0 x1 x2 x3 xo4 xo5 = k0_pay4 x0 x1 x2 x3 xo4 := by
  unfold out0_B_4
  rw [View.read_writes_eq_canon _ _ _ (cover0_B_4 c i arg2 harg2 arg3 harg3 arg4 harg4 arg5 harg5 arg6 harg6 arg7 harg7 hc0 x0 x1 x2 x3 xo4 xo5)]
  unfold kernelRun0_B
  dsimp only
  try sl_unfold_words
  rw [View.canon_unit_zero hz]
  simp only [View.readAt_eq_ld, harg2.read_unread, harg3.read_unread, harg4.read_unread, harg5.read_unread, harg6.read_unread, harg7.read_unread,
    View.ld_unit_zero (S := S1024x128) hz, View.ld_unit_zero (S := S2048x128) hz, View.ld_unit_zero (S := S1x1024) hz, View.ld_unit_zero (S := S1x2048) hz]

/-- A later step's denominator row: the row found plus the step's column sums. -/
theorem later_den (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S1x1024 .i32) (harg4 : arg4.IsWhole) (arg5 : Memref sig .tc .vmem S1x2048 .i32) (harg5 : arg5.IsWhole) (arg6 : Memref sig .tc .vmem S1x2048 .f32) (harg6 : arg6.IsWhole) (arg7 : Memref sig .tc .vmem S1x2048 .f32) (harg7 : arg7.IsWhole) (hc0 : ¬cond0_0 i)
    (x0 : Vec F S1024x128 .bf16) (x1 : Vec F S2048x128 .bf16) (x2 : Vec F S1x1024 .i32) (x3 : Vec F S1x2048 .i32) (xo4 : Vec F S1x2048 .f32) (xo5 : Vec F S1x2048 .f32) :
    out0_B_5 c i arg2 harg2 arg3 harg3 arg4 harg4 arg5 harg5 arg6 harg6 arg7 harg7 hc0 x0 x1 x2 x3 xo4 xo5 = k0_pay5 x0 x1 xo5 := by
  unfold out0_B_5
  rw [View.read_writes_eq_canon _ _ _ (cover0_B_5 c i arg2 harg2 arg3 harg3 arg4 harg4 arg5 harg5 arg6 harg6 arg7 harg7 hc0 x0 x1 x2 x3 xo4 xo5)]
  unfold kernelRun0_B
  dsimp only
  try sl_unfold_words
  rw [View.canon_unit_zero hz]
  simp only [View.readAt_eq_ld, harg2.read_unread, harg3.read_unread, harg4.read_unread, harg5.read_unread, harg6.read_unread, harg7.read_unread,
    View.ld_unit_zero (S := S1024x128) hz, View.ld_unit_zero (S := S2048x128) hz, View.ld_unit_zero (S := S1x1024) hz, View.ld_unit_zero (S := S1x2048) hz]

/-- A first step's numerator row: the zero row plus the step's masked column sums. -/
theorem first_nom (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S1x1024 .i32) (harg4 : arg4.IsWhole) (arg5 : Memref sig .tc .vmem S1x2048 .i32) (harg5 : arg5.IsWhole) (arg6 : Memref sig .tc .vmem S1x2048 .f32) (harg6 : arg6.IsWhole) (arg7 : Memref sig .tc .vmem S1x2048 .f32) (harg7 : arg7.IsWhole) (hc0 : cond0_0 i)
    (x0 : Vec F S1024x128 .bf16) (x1 : Vec F S2048x128 .bf16) (x2 : Vec F S1x1024 .i32) (x3 : Vec F S1x2048 .i32) :
    out0_A_4 c i arg2 harg2 arg3 harg3 arg4 harg4 arg5 harg5 arg6 harg6 arg7 harg7 hc0 x0 x1 x2 x3 = k0_pay4 x0 x1 x2 x3 (k0_pay1 (F := F)) := by
  unfold out0_A_4
  rw [View.read_writes_eq_canon _ _ _ (cover0_A_4 c i arg2 harg2 arg3 harg3 arg4 harg4 arg5 harg5 arg6 harg6 arg7 harg7 hc0 x0 x1 x2 x3)]
  unfold kernelRun0_A
  dsimp only
  sl_unfold_words
  rw [View.canon_cons_unit_zero (S := S1x2048) hz, View.readCov_unit_zero (S := S1x2048) _ hz]
  simp only [View.readAt_eq_ld, harg2.read_unread, harg3.read_unread, harg4.read_unread, harg5.read_unread, harg6.read_unread, harg7.read_unread,
    View.ld_unit_zero (S := S1024x128) hz, View.ld_unit_zero (S := S2048x128) hz, View.ld_unit_zero (S := S1x1024) hz, View.ld_unit_zero (S := S1x2048) hz]

/-- A first step's denominator row: the zero row plus the step's column sums. -/
theorem first_den (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S1x1024 .i32) (harg4 : arg4.IsWhole) (arg5 : Memref sig .tc .vmem S1x2048 .i32) (harg5 : arg5.IsWhole) (arg6 : Memref sig .tc .vmem S1x2048 .f32) (harg6 : arg6.IsWhole) (arg7 : Memref sig .tc .vmem S1x2048 .f32) (harg7 : arg7.IsWhole) (hc0 : cond0_0 i)
    (x0 : Vec F S1024x128 .bf16) (x1 : Vec F S2048x128 .bf16) (x2 : Vec F S1x1024 .i32) (x3 : Vec F S1x2048 .i32) :
    out0_A_5 c i arg2 harg2 arg3 harg3 arg4 harg4 arg5 harg5 arg6 harg6 arg7 harg7 hc0 x0 x1 x2 x3 = k0_pay5 x0 x1 (k0_pay2 (F := F)) := by
  unfold out0_A_5
  rw [View.read_writes_eq_canon _ _ _ (cover0_A_5 c i arg2 harg2 arg3 harg3 arg4 harg4 arg5 harg5 arg6 harg6 arg7 harg7 hc0 x0 x1 x2 x3)]
  unfold kernelRun0_A
  dsimp only
  sl_unfold_words
  rw [View.canon_cons_unit_zero (S := S1x2048) hz, View.readCov_unit_zero (S := S1x2048) _ hz]
  simp only [View.readAt_eq_ld, harg2.read_unread, harg3.read_unread, harg4.read_unread, harg5.read_unread, harg6.read_unread, harg7.read_unread,
    View.ld_unit_zero (S := S1024x128) hz, View.ld_unit_zero (S := S2048x128) hz, View.ld_unit_zero (S := S1x1024) hz, View.ld_unit_zero (S := S1x2048) hz]

end Cert.KernelIdeal.Pieces

end
-- ==== Proof.Blocks.lean ====
/-
  Each input block of a grid point, as entries of the whole array it is cut from.

  The grid has 32 points `t`; `t / 8` numbers the tile of 2048 input columns, `t % 8` the tile of 1024 target rows.
  Target rows and target labels move with `t % 8`, input rows, input labels and both output rows with `t / 8`.
  So entry `(p, ch)` of the target block is entry `(1024·(t % 8) + p, ch)` of the target array, and likewise for the others.
-/
import proofs.«161251_j68083821576868_2_alg».proof.Proof.Gen.KernelIdeal.Frame
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx

variable {F : FTy → Type} [FloatOps F] [Named F]
variable (m : (ℓ : Loc nD τ sig) → Buf (Elt F) ℓ)

/-- Where each window's block sits at point `t`, decided over the 32 points. -/
theorem idx_facts : ∀ t : Fin cfg0.N,
    win0_0.index t (0 : Fin 2) = t.val % 8 ∧ win0_0.index t (1 : Fin 2) = 0
    ∧ win0_1.index t (0 : Fin 2) = t.val / 8 ∧ win0_1.index t (1 : Fin 2) = 0
    ∧ win0_2.index t (0 : Fin 2) = 0 ∧ win0_2.index t (1 : Fin 2) = t.val % 8
    ∧ win0_3.index t (0 : Fin 2) = 0 ∧ win0_3.index t (1 : Fin 2) = t.val / 8
    ∧ win0_4.index t (0 : Fin 2) = 0 ∧ win0_4.index t (1 : Fin 2) = t.val / 8
    ∧ win0_5.index t (0 : Fin 2) = 0 ∧ win0_5.index t (1 : Fin 2) = t.val / 8 :=
  (by decide +kernel : ∀ t : Fin grid0.N, _)

/-- The target rows' block. -/
theorem nt_block (c : Dev nD) (t : Fin cfg0.N) (p : Fin 1024) (ch : Fin 128) (k : S8192x128.Idx)
    (hk0 : (k 0).val = 1024 * (t.val % 8) + p.val) (hk1 : (k 1).val = ch.val) :
    (iblk m c 0 t : Vec F S1024x128 .bf16) (ix2 p ch) = (V m c main_v15 : S8192x128.Idx → Elt F .bf16) k := by
  obtain ⟨h0, h1, -⟩ := idx_facts t
  unfold iblk
  rw [View.read_apply]
  show V m c main_v15 _ = V m c main_v15 _
  congr 1
  funext a
  apply Fin.ext
  match a with
  | ⟨0, _⟩ => show win0_0.index t 0 * 1024 + 1 * p.val = (k 0).val; rw [h0, hk0]; omega
  | ⟨1, _⟩ => show win0_0.index t 1 * 128 + 1 * ch.val = (k 1).val; rw [h1, hk1]; omega

/-- The input rows' block. -/
theorem ni_block (c : Dev nD) (t : Fin cfg0.N) (q : Fin 2048) (ch : Fin 128) (k : S8192x128.Idx)
    (hk0 : (k 0).val = 2048 * (t.val / 8) + q.val) (hk1 : (k 1).val = ch.val) :
    (iblk m c 1 t : Vec F S2048x128 .bf16) (ix2 q ch) = (V m c main_v14 : S8192x128.Idx → Elt F .bf16) k := by
  obtain ⟨-, -, h0, h1, -⟩ := idx_facts t
  unfold iblk
  rw [View.read_apply]
  show V m c main_v14 _ = V m c main_v14 _
  congr 1
  funext a
  apply Fin.ext
  match a with
  | ⟨0, _⟩ => show win0_1.index t 0 * 2048 + 1 * q.val = (k 0).val; rw [h0, hk0]; omega
  | ⟨1, _⟩ => show win0_1.index t 1 * 128 + 1 * ch.val = (k 1).val; rw [h1, hk1]; omega

/-- The target labels' block. -/
theorem pt_block (c : Dev nD) (t : Fin cfg0.N) (p : Fin 1024) (k : S1x8192.Idx)
    (hk0 : (k 0).val = 0) (hk1 : (k 1).val = 1024 * (t.val % 8) + p.val) :
    (iblk m c 2 t : Vec F S1x1024 .i32) (ix2 (0 : Fin 1) p) = (V m c main_v18 : S1x8192.Idx → Elt F .i32) k := by
  obtain ⟨-, -, -, -, h0, h1, -⟩ := idx_facts t
  unfold iblk
  rw [View.read_apply]
  show V m c main_v18 _ = V m c main_v18 _
  congr 1
  funext a
  apply Fin.ext
  match a with
  | ⟨0, _⟩ => show win0_2.index t 0 * 1 + 1 * 0 = (k 0).val; rw [h0, hk0]
  | ⟨1, _⟩ => show win0_2.index t 1 * 1024 + 1 * p.val = (k 1).val; rw [h1, hk1]; omega

/-- The input labels' block. -/
theorem pi_block (c : Dev nD) (t : Fin cfg0.N) (q : Fin 2048) (k : S1x8192.Idx)
    (hk0 : (k 0).val = 0) (hk1 : (k 1).val = 2048 * (t.val / 8) + q.val) :
    (iblk m c 3 t : Vec F S1x2048 .i32) (ix2 (0 : Fin 1) q) = (V m c main_v19 : S1x8192.Idx → Elt F .i32) k := by
  obtain ⟨-, -, -, -, -, -, h0, h1, -⟩ := idx_facts t
  unfold iblk
  rw [View.read_apply]
  show V m c main_v19 _ = V m c main_v19 _
  congr 1
  funext a
  apply Fin.ext
  match a with
  | ⟨0, _⟩ => show win0_3.index t 0 * 1 + 1 * 0 = (k 0).val; rw [h0, hk0]
  | ⟨1, _⟩ => show win0_3.index t 1 * 2048 + 1 * q.val = (k 1).val; rw [h1, hk1]; omega

end Cert.KernelIdeal.Blocks

end
-- ==== Proof.LibBlockFold.lean ====
/-
  A reduction over all the columns of a row, taken one block of columns at a time.

  For a family f : Fin N → α and a block width m, block n holds the entries f (m·n + q), q < m. A running
  accumulator starts at the unit b and, at step n, is combined with the reduction of block n alone. After enough
  steps to cover all N columns (N ≤ m·n) the accumulator is the reduction of the whole row: this is shown for the
  maximum and the minimum in a linear order (where max b b = b and min b b = b hold for every b, so any starting
  value b serves as the unit of both the accumulator and each block's own reduction) and for the sum in a
  commutative monoid. The four-step forms at N = 4096, m = 1024 are written out at the end.
-/
import Mathlib.Data.Finset.Fold
import Mathlib.Algebra.BigOperators.Fin
import Mathlib.Algebra.BigOperators.Intervals
import Mathlib.Tactic

namespace Cert.LibBlockFold

open Finset

variable {α : Type*} {N m : ℕ}

/-- Entry q of block n of width m: the entry f (m·n + q) where that index is a column, else the default b. -/
def blk (b : α) (f : Fin N → α) (n : ℕ) (q : Fin m) : α :=
  if h : m * n + q.val < N then f ⟨m * n + q.val, h⟩ else b

/-- Inside the row, entry q of block n is f (m·n + q). -/
theorem blk_of_lt (b : α) (f : Fin N → α) (n : ℕ) (q : Fin m) (h : m * n + q.val < N) :
    blk b f n q = f ⟨m * n + q.val, h⟩ := dif_pos h

/-! ### Maximum -/

section Max
variable [LinearOrder α]

/-- The running maximum: b before any block; after block n, the larger of the previous value and block n's own
    maximum (itself started from b). -/
def accMax (m : ℕ) (b : α) (f : Fin N → α) : ℕ → α
  | 0 => b
  | n + 1 => max (accMax m b f n) ((univ : Finset (Fin m)).fold max b (blk b f n))

/-- The running maximum after n blocks lies below c exactly when b and every entry of the first m·n columns do. -/
theorem accMax_le_iff (m : ℕ) (b : α) (f : Fin N → α) (n : ℕ) (c : α) :
    accMax m b f n ≤ c ↔ b ≤ c ∧ ∀ j : Fin N, j.val < m * n → f j ≤ c := by
  induction n with
  | zero => simp [accMax]
  | succ n ih =>
    rw [accMax, max_le_iff, ih, fold_max_le]
    constructor
    · rintro ⟨⟨hb, h1⟩, -, h2⟩
      refine ⟨hb, fun j hj => ?_⟩
      by_cases hlt : j.val < m * n
      · exact h1 j hlt
      · rw [Nat.mul_add_one] at hj
        have hq : j.val - m * n < m := by omega
        have hidx : m * n + (j.val - m * n) = j.val := by omega
        have h3 := h2 ⟨j.val - m * n, hq⟩ (mem_univ _)
        rw [blk_of_lt b f n _ (by simpa [hidx] using j.isLt)] at h3
        have hj' : (⟨m * n + (j.val - m * n), by simpa [hidx] using j.isLt⟩ : Fin N) = j := Fin.ext hidx
        simpa [hj'] using h3
    · rintro ⟨hb, h⟩
      refine ⟨⟨hb, fun j hj => h j (by rw [Nat.mul_add_one]; omega)⟩, hb, fun q _ => ?_⟩
      unfold blk
      split
      · exact h _ (by rw [Nat.mul_add_one]; simp)
      · exact hb

/-- Once the blocks cover the row, the running maximum is the maximum over the whole row. -/
theorem accMax_eq_fold (m : ℕ) (b : α) (f : Fin N → α) (n : ℕ) (h : N ≤ m * n) :
    accMax m b f n = (univ : Finset (Fin N)).fold max b f := by
  refine eq_of_forall_ge_iff fun c => ?_
  rw [accMax_le_iff, fold_max_le]
  constructor
  · rintro ⟨hb, h1⟩; exact ⟨hb, fun j _ => h1 j (lt_of_lt_of_le j.isLt h)⟩
  · rintro ⟨hb, h1⟩; exact ⟨hb, fun j _ => h1 j (mem_univ _)⟩

end Max

/-! ### Minimum -/

section Min
variable [LinearOrder α]

/-- The running minimum: b before any block; after block n, the smaller of the previous value and block n's own
    minimum (itself started from b). -/
def accMin (m : ℕ) (b : α) (f : Fin N → α) : ℕ → α
  | 0 => b
  | n + 1 => min (accMin m b f n) ((univ : Finset (Fin m)).fold min b (blk b f n))

/-- The running minimum after n blocks lies above c exactly when b and every entry of the first m·n columns do. -/
theorem le_accMin_iff (m : ℕ) (b : α) (f : Fin N → α) (n : ℕ) (c : α) :
    c ≤ accMin m b f n ↔ c ≤ b ∧ ∀ j : Fin N, j.val < m * n → c ≤ f j := by
  induction n with
  | zero => simp [accMin]
  | succ n ih =>
    rw [accMin, le_min_iff, ih, le_fold_min]
    constructor
    · rintro ⟨⟨hb, h1⟩, -, h2⟩
      refine ⟨hb, fun j hj => ?_⟩
      by_cases hlt : j.val < m * n
      · exact h1 j hlt
      · rw [Nat.mul_add_one] at hj
        have hq : j.val - m * n < m := by omega
        have hidx : m * n + (j.val - m * n) = j.val := by omega
        have h3 := h2 ⟨j.val - m * n, hq⟩ (mem_univ _)
        rw [blk_of_lt b f n _ (by simpa [hidx] using j.isLt)] at h3
        have hj' : (⟨m * n + (j.val - m * n), by simpa [hidx] using j.isLt⟩ : Fin N) = j := Fin.ext hidx
        simpa [hj'] using h3
    · rintro ⟨hb, h⟩
      refine ⟨⟨hb, fun j hj => h j (by rw [Nat.mul_add_one]; omega)⟩, hb, fun q _ => ?_⟩
      unfold blk
      split
      · exact h _ (by rw [Nat.mul_add_one]; simp)
      · exact hb

/-- Once the blocks cover the row, the running minimum is the minimum over the whole row. -/
theorem accMin_eq_fold (m : ℕ) (b : α) (f : Fin N → α) (n : ℕ) (h : N ≤ m * n) :
    accMin m b f n = (univ : Finset (Fin N)).fold min b f := by
  refine eq_of_forall_le_iff fun c => ?_
  rw [le_accMin_iff, le_fold_min]
  constructor
  · rintro ⟨hb, h1⟩; exact ⟨hb, fun j _ => h1 j (lt_of_lt_of_le j.isLt h)⟩
  · rintro ⟨hb, h1⟩; exact ⟨hb, fun j _ => h1 j (mem_univ _)⟩

end Min

/-! ### Sum -/

section Sum
variable [AddCommMonoid α]

/-- The row continued by zeros past its last column, as a function of a natural-number index. -/
def ext0 (f : Fin N → α) (i : ℕ) : α := if h : i < N then f ⟨i, h⟩ else 0

/-- The running sum: 0 before any block; after block n, the previous value plus block n's own sum. -/
def accSum (m : ℕ) (f : Fin N → α) : ℕ → α
  | 0 => 0
  | n + 1 => accSum m f n + ∑ q : Fin m, blk 0 f n q

/-- The running sum after n blocks is the sum of the first m·n entries of the zero-continued row. -/
theorem accSum_eq_sum_range (m : ℕ) (f : Fin N → α) (n : ℕ) :
    accSum m f n = ∑ i ∈ range (m * n), ext0 f i := by
  induction n with
  | zero => simp [accSum]
  | succ n ih =>
    rw [accSum, ih, Nat.mul_add_one, sum_range_add]
    congr 1
    exact Fin.sum_univ_eq_sum_range (fun i => ext0 f (m * n + i)) m

/-- The sum of the whole row is the sum of the first N entries of its zero-continued form. -/
theorem sum_univ_eq_sum_range_ext0 (f : Fin N → α) : ∑ j : Fin N, f j = ∑ i ∈ range N, ext0 f i := by
  rw [← Fin.sum_univ_eq_sum_range (ext0 f) N]
  exact Finset.sum_congr rfl fun j _ => by simp [ext0]

/-- Once the blocks cover the row, the running sum is the sum over the whole row. -/
theorem accSum_eq_sum (m : ℕ) (f : Fin N → α) (n : ℕ) (h : N ≤ m * n) :
    accSum m f n = ∑ j : Fin N, f j := by
  rw [accSum_eq_sum_range, sum_univ_eq_sum_range_ext0]
  refine (Finset.sum_subset (range_mono h) fun i _ hi => ?_).symm
  have : ¬ i < N := by simpa using hi
  simp [ext0, this]

end Sum

/-! ### The four-step forms: 4096 columns in four blocks of 1024 -/

section Four

/-- Four blocks of 1024 columns: the running maximum written out. Block k is given as any function gk that agrees
    entrywise with columns 1024·k … 1024·k + 1023 of f; the accumulator may start from any value a, and the block
    maxima and the whole-row maximum start from b. -/
theorem max_four_blocks [LinearOrder α] (a b : α) (f : Fin 4096 → α) (g0 g1 g2 g3 : Fin 1024 → α)
    (h0 : ∀ q : Fin 1024, g0 q = f ⟨q.val, by omega⟩)
    (h1 : ∀ q : Fin 1024, g1 q = f ⟨1024 + q.val, by omega⟩)
    (h2 : ∀ q : Fin 1024, g2 q = f ⟨2048 + q.val, by omega⟩)
    (h3 : ∀ q : Fin 1024, g3 q = f ⟨3072 + q.val, by omega⟩) :
    max (max (max (max a ((univ : Finset (Fin 1024)).fold max b g0)) ((univ : Finset (Fin 1024)).fold max b g1))
      ((univ : Finset (Fin 1024)).fold max b g2)) ((univ : Finset (Fin 1024)).fold max b g3)
      = max a ((univ : Finset (Fin 4096)).fold max b f) := by
  have e0 : g0 = blk b f 0 := funext fun q => by
    rw [h0, blk_of_lt b f 0 q (by omega)]; exact congrArg f (Fin.ext (by simp))
  have e1 : g1 = blk b f 1 := funext fun q => by
    rw [h1, blk_of_lt b f 1 q (by omega)]
  have e2 : g2 = blk b f 2 := funext fun q => by
    rw [h2, blk_of_lt b f 2 q (by omega)]
  have e3 : g3 = blk b f 3 := funext fun q => by
    rw [h3, blk_of_lt b f 3 q (by omega)]
  rw [← accMax_eq_fold 1024 b f 4 (by norm_num), e0, e1, e2, e3]
  refine eq_of_forall_ge_iff fun c => ?_
  simp only [accMax, max_le_iff, fold_max_le]
  tauto

/-- The same with the accumulator started from b itself: the running maximum after four blocks is the maximum of
    the whole row. -/
theorem max_four_blocks_self [LinearOrder α] (b : α) (f : Fin 4096 → α) (g0 g1 g2 g3 : Fin 1024 → α)
    (h0 : ∀ q : Fin 1024, g0 q = f ⟨q.val, by omega⟩)
    (h1 : ∀ q : Fin 1024, g1 q = f ⟨1024 + q.val, by omega⟩)
    (h2 : ∀ q : Fin 1024, g2 q = f ⟨2048 + q.val, by omega⟩)
    (h3 : ∀ q : Fin 1024, g3 q = f ⟨3072 + q.val, by omega⟩) :
    max (max (max (max b ((univ : Finset (Fin 1024)).fold max b g0)) ((univ : Finset (Fin 1024)).fold max b g1))
      ((univ : Finset (Fin 1024)).fold max b g2)) ((univ : Finset (Fin 1024)).fold max b g3)
      = (univ : Finset (Fin 4096)).fold max b f := by
  rw [max_four_blocks b b f g0 g1 g2 g3 h0 h1 h2 h3]
  exact max_eq_right ((le_fold_max b).2 (Or.inl le_rfl))

/-- Four blocks of 1024 columns: the running minimum written out (accumulator from any a, block minima and the
    whole-row minimum from b). -/
theorem min_four_blocks [LinearOrder α] (a b : α) (f : Fin 4096 → α) (g0 g1 g2 g3 : Fin 1024 → α)
    (h0 : ∀ q : Fin 1024, g0 q = f ⟨q.val, by omega⟩)
    (h1 : ∀ q : Fin 1024, g1 q = f ⟨1024 + q.val, by omega⟩)
    (h2 : ∀ q : Fin 1024, g2 q = f ⟨2048 + q.val, by omega⟩)
    (h3 : ∀ q : Fin 1024, g3 q = f ⟨3072 + q.val, by omega⟩) :
    min (min (min (min a ((univ : Finset (Fin 1024)).fold min b g0)) ((univ : Finset (Fin 1024)).fold min b g1))
      ((univ : Finset (Fin 1024)).fold min b g2)) ((univ : Finset (Fin 1024)).fold min b g3)
      = min a ((univ : Finset (Fin 4096)).fold min b f) := by
  have e0 : g0 = blk b f 0 := funext fun q => by
    rw [h0, blk_of_lt b f 0 q (by omega)]; exact congrArg f (Fin.ext (by simp))
  have e1 : g1 = blk b f 1 := funext fun q => by
    rw [h1, blk_of_lt b f 1 q (by omega)]
  have e2 : g2 = blk b f 2 := funext fun q => by
    rw [h2, blk_of_lt b f 2 q (by omega)]
  have e3 : g3 = blk b f 3 := funext fun q => by
    rw [h3, blk_of_lt b f 3 q (by omega)]
  rw [← accMin_eq_fold 1024 b f 4 (by norm_num), e0, e1, e2, e3]
  refine eq_of_forall_le_iff fun c => ?_
  simp only [accMin, le_min_iff, le_fold_min]
  tauto

/-- The same with the accumulator started from b itself. -/
theorem min_four_blocks_self [LinearOrder α] (b : α) (f : Fin 4096 → α) (g0 g1 g2 g3 : Fin 1024 → α)
    (h0 : ∀ q : Fin 1024, g0 q = f ⟨q.val, by omega⟩)
    (h1 : ∀ q : Fin 1024, g1 q = f ⟨1024 + q.val, by omega⟩)
    (h2 : ∀ q : Fin 1024, g2 q = f ⟨2048 + q.val, by omega⟩)
    (h3 : ∀ q : Fin 1024, g3 q = f ⟨3072 + q.val, by omega⟩) :
    min (min (min (min b ((univ : Finset (Fin 1024)).fold min b g0)) ((univ : Finset (Fin 1024)).fold min b g1))
      ((univ : Finset (Fin 1024)).fold min b g2)) ((univ : Finset (Fin 1024)).fold min b g3)
      = (univ : Finset (Fin 4096)).fold min b f := by
  rw [min_four_blocks b b f g0 g1 g2 g3 h0 h1 h2 h3]
  exact min_eq_right ((fold_min_le b).2 (Or.inl le_rfl))

/-- Four blocks of 1024 columns: the running sum written out, started from any value a. -/
theorem sum_four_blocks [AddCommMonoid α] (a : α) (f : Fin 4096 → α) (g0 g1 g2 g3 : Fin 1024 → α)
    (h0 : ∀ q : Fin 1024, g0 q = f ⟨q.val, by omega⟩)
    (h1 : ∀ q : Fin 1024, g1 q = f ⟨1024 + q.val, by omega⟩)
    (h2 : ∀ q : Fin 1024, g2 q = f ⟨2048 + q.val, by omega⟩)
    (h3 : ∀ q : Fin 1024, g3 q = f ⟨3072 + q.val, by omega⟩) :
    a + ∑ q, g0 q + ∑ q, g1 q + ∑ q, g2 q + ∑ q, g3 q = a + ∑ j : Fin 4096, f j := by
  have e0 : g0 = blk 0 f 0 := funext fun q => by
    rw [h0, blk_of_lt 0 f 0 q (by omega)]; exact congrArg f (Fin.ext (by simp))
  have e1 : g1 = blk 0 f 1 := funext fun q => by
    rw [h1, blk_of_lt 0 f 1 q (by omega)]
  have e2 : g2 = blk 0 f 2 := funext fun q => by
    rw [h2, blk_of_lt 0 f 2 q (by omega)]
  have e3 : g3 = blk 0 f 3 := funext fun q => by
    rw [h3, blk_of_lt 0 f 3 q (by omega)]
  rw [← accSum_eq_sum 1024 f 4 (by norm_num), e0, e1, e2, e3]
  simp only [accSum, zero_add, add_assoc]

end Four

end Cert.LibBlockFold
-- ==== Proof.LibRowBlocks.lean ====
/-
  A sum over 8192 columns taken in eight blocks of 1024.

  The running sum starts at 0 and, at step n, adds the sum of the entries f (1024·n + q), q < 1024. After eight
  steps it is the sum over all 8192 columns.
-/
import proofs.«161251_j68083821576868_2_alg».proof.Proof.LibBlockFold

namespace Cert.LibRowBlocks

open Finset Cert.LibBlockFold

variable {α : Type*} [AddCommMonoid α]

/-- The running sum over blocks of 1024 columns of a row of 8192: 0 before any block; after block n, the previous
    value plus block n's own sum. -/
def accB (f : Fin 8192 → α) (n : ℕ) : α := accSum 1024 f n

/-- Before any block the running sum is 0. -/
theorem accB_zero (f : Fin 8192 → α) : accB f 0 = 0 := rfl

/-- For each of the eight blocks, the step adds the sum of that block's entries. -/
theorem accB_succ (f : Fin 8192 → α) (n : ℕ) (hn : n < 8) :
    accB f (n + 1) = accB f n + ∑ q : Fin 1024, f ⟨1024 * n + q.val, by have := q.isLt; omega⟩ := by
  show accSum 1024 f n + ∑ q : Fin 1024, blk 0 f n q = _
  refine congrArg (accSum 1024 f n + ·) (Finset.sum_congr rfl fun q _ => ?_)
  exact blk_of_lt 0 f n q (by have := q.isLt; omega)

/-- After the eight blocks the running sum is the sum over the whole row. -/
theorem accB_eight (f : Fin 8192 → α) : accB f 8 = ∑ j : Fin 8192, f j :=
  accSum_eq_sum 1024 f 8 (by norm_num)

end Cert.LibRowBlocks
-- ==== Proof.Terms.lean ====
/-
  The two sums of the contrastive loss, as functions of the row-normalised embeddings and the labels.

  For target rows `nt a` and input rows `ni b` (128 channels each) the similarity is `sim a b = Σ_c nt a c · ni b c`,
  its weight `w a b = exp (sim a b · s)` with `s` the reciprocal temperature, the numerator of column `b` the sum of
  the weights over the rows `a` whose label equals the label of `b`, the denominator the sum over all rows.
  Two ways of writing the label mask meet here: the entry chosen by a comparison bit, and the product with the
  0/1 value of the opposite bit. Both are an `if` on the equality of the labels, on every extended real: `0 · e = 0`
  and `1 · e = e` hold at the infinities too, so nothing has to be finite. Likewise `d · e + (1 − d) · e = e` for a bit
  `d`, and a quotient by a nonzero real is the product with its reciprocal.
-/
import Idealize.ShloMosaic.PureOps.Ideal
import Idealize.ShloMosaic.PureOps.Ideal.Laws
import proofs.«161251_j68083821576868_2_alg».proof.Proof.LibRowBlocks

noncomputable section

namespace Cert.Contrast

open Idealize.ShloMosaic Finset

/-! ## The masks -/

/-- A comparison bit is 1 exactly when the labels are equal. -/
theorem eq_bit (x y : BitVec 32) : IntOp.cmpi .eq x y = if x = y then 1#1 else 0#1 := by
  show BitVec.ofBool (x == y) = _
  by_cases h : x = y
  · subst h; simp
  · rw [if_neg h, beq_eq_false_iff_ne.mpr h]; rfl

/-- The opposite bit, read as a number, is 0 when the labels are equal and 1 otherwise. -/
theorem ne_num (x y : BitVec 32) :
    (((IntOp.cmpi .ne y x).toNat : ℝ) : EReal) = if x = y then 0 else 1 := by
  unfold IntOp.cmpi
  by_cases h : x = y
  · subst h; simp
  · have h' : y ≠ x := fun e => h e.symm
    simp [h, h']

/-- Choosing the entry by the equality bit keeps it where the labels are equal. -/
theorem chosen (x y : BitVec 32) (e : EReal) :
    Scalar.select (IntOp.cmpi .eq x y) e 0 = if x = y then e else 0 := by
  rw [eq_bit]
  by_cases h : x = y
  · rw [if_pos h, if_pos h]; rfl
  · rw [if_neg h, if_neg h]; exact if_neg (by decide)

/-- Multiplying by one minus the number of the opposite bit keeps it where the labels are equal. -/
theorem kept (x y : BitVec 32) (e : EReal) :
    ((1 : EReal) - (((IntOp.cmpi .ne y x).toNat : ℝ) : EReal)) * e = if x = y then e else 0 := by
  rw [ne_num]
  by_cases h : x = y
  · rw [if_pos h, if_pos h, sub_zero, one_mul]
  · rw [if_neg h, if_neg h]
    have : (1 : EReal) - 1 = 0 := by
      rw [show (1 : EReal) = ((1 : ℝ) : EReal) from rfl, ← EReal.coe_sub, sub_self]; rfl
    rw [this, zero_mul]

/-- The two complementary masked entries add up to the entry. -/
theorem split (x y : BitVec 32) (e : EReal) :
    (((IntOp.cmpi .ne y x).toNat : ℝ) : EReal) * e
      + ((1 : EReal) - (((IntOp.cmpi .ne y x).toNat : ℝ) : EReal)) * e = e := by
  rw [kept, ne_num]
  by_cases h : x = y
  · rw [if_pos h, if_pos h, zero_mul, zero_add]
  · rw [if_neg h, if_neg h, one_mul, add_zero]

/-! ## The literals -/

/-- The word of 1.0 is the number 1. -/
theorem word_one : Ideal.ofBits .f32 0x3F800000#32 = (1 : EReal) := by
  have h : Ideal.ofBits .f32 0x3F800000#32 = ((1 : ℝ) : EReal) := by
    simp [Ideal.ofBits, Ideal.ieee, -EReal.coe_mul]; norm_num
  rw [h]; rfl

/-- The temperature's word is the rational it encodes. -/
theorem word_tau : Ideal.ofBits .f32 0x3D8F5C29#32 = ((9395241 / 134217728 : ℝ) : EReal) := by
  simp [Ideal.ofBits, Ideal.ieee, -EReal.coe_mul]; norm_num

/-- The reciprocal temperature. -/
def scale : EReal := ((134217728 / 9395241 : ℝ) : EReal)

/-- Dividing by the temperature is multiplying by its reciprocal, on every extended real. -/
theorem div_tau (s : EReal) : Ideal.div s (Ideal.ofBits .f32 0x3D8F5C29#32) = s * scale := by
  rw [word_tau, Ideal.div_coe (by norm_num : (9395241 / 134217728 : ℝ) ≠ 0)]
  unfold scale
  congr 2
  norm_num

/-! ## The sums -/

section
variable (nt ni : Fin 8192 → Fin 128 → EReal) (pt pi : Fin 8192 → BitVec 32)

/-- The similarity of target row `a` and input row `b`. -/
def sim (a b : Fin 8192) : EReal := ∑ c : Fin 128, nt a c * ni b c

/-- Its weight. -/
def weight (a b : Fin 8192) : EReal := Ideal.exp (sim nt ni a b * scale)

/-- The weight where the labels agree, else zero. -/
def masked (b a : Fin 8192) : EReal := if pt a = pi b then weight nt ni a b else 0

/-- The numerator of column `b`. -/
def nom (b : Fin 8192) : EReal := ∑ a : Fin 8192, masked nt ni pt pi b a

/-- The denominator of column `b`. -/
def den (b : Fin 8192) : EReal := ∑ a : Fin 8192, weight nt ni a b

/-- The numerator taken eight blocks of 1024 rows at a time. -/
theorem nom_blocks (b : Fin 8192) : nom nt ni pt pi b = LibRowBlocks.accB (masked nt ni pt pi b) 8 :=
  (LibRowBlocks.accB_eight _).symm

/-- The denominator taken eight blocks of 1024 rows at a time. -/
theorem den_blocks (b : Fin 8192) : den nt ni b = LibRowBlocks.accB (fun a => weight nt ni a b) 8 :=
  (LibRowBlocks.accB_eight _).symm

end

end Cert.Contrast

end
-- ==== Proof.LibDotRows.lean ====
/-
  A product of two matrices stored row by row, read at an index written by coordinates.

  For dimension numbers that contract the LAST axis of both operands — no batch axis, `[M, K] · [N, K] → [M, N]`, the
  product of the left matrix with the transpose of the right one — the product reads, at `(p, j)`,
  `Σ_k lhs (p, k) · rhs (j, k)` over the `K` values of the contracted coordinate.  This holds for the device's
  product accumulated into the zero splat (the accumulator contributes `0`) and for the host's `dot_general` alike, so
  the two agree entry by entry.  The dimension numbers enter only through four facts about where they send an output
  index and a contraction index (`hl0 … hr1`), which hold by unfolding for any record of this form.  General: nothing
  here mentions a program.
-/
import Idealize.ShloMosaic.PureOps.Ideal.Laws
import Idealize.ShloMosaic.Lib.ValueIdx

noncomputable section

namespace Cert.LibDotRows

open Idealize.ShloMosaic Idealize.ShloMosaic.ValueIdx

/-- The operand indices of the contraction, re-indexed by the contracted coordinate. -/
theorem sum_rows {M K N : ℕ} (D : DotDims ⟨2, ![M, K]⟩ ⟨2, ![N, K]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (i 1).val)
    (hr1 : ∀ (i : (⟨2, ![M, N]⟩ : Shape).Idx) (q : D.contr.Idx), (D.rhsIdx i q 1).val = (q ⟨0, by omega⟩).val)
    (lhs : (⟨2, ![M, K]⟩ : Shape).Idx → EReal) (rhs : (⟨2, ![N, K]⟩ : Shape).Idx → EReal) (p : Fin M) (j : Fin N) :
    (∑ q : D.contr.Idx, lhs (D.lhsIdx (ix2 p j) q) * rhs (D.rhsIdx (ix2 p j) q))
      = ∑ k : Fin K, lhs (ix2 p k) * rhs (ix2 j k) := by
  rw [← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 j k := funext fun a => Fin.ext (by
    match a with
    | ⟨0, _⟩ => exact hr0 _ _
    | ⟨1, _⟩ => exact (hr1 _ _).trans hk)
  rw [el, er]

/-- `[M, K] · [N, K]` on the device into the zero splat, at `(p, j)`, is `Σ_k lhs (p, k) · rhs (j, k)`. -/
theorem matmul_zero_at {M K N : ℕ} {φ₁ φ₂ : FTy}
    (D : DotDims ⟨2, ![M, K]⟩ ⟨2, ![N, K]⟩ ⟨2, ![M, N]⟩) (prec : Option ContractPrecision)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (i 1).val)
    (hr1 : ∀ (i : (⟨2, ![M, N]⟩ : Shape).Idx) (q : D.contr.Idx), (D.rhsIdx i q 1).val = (q ⟨0, by omega⟩).val)
    (lhs : FVec Ideal ⟨2, ![M, K]⟩ φ₁) (rhs : FVec Ideal ⟨2, ![N, K]⟩ φ₂) (p : Fin M) (j : Fin N) :
    FloatOps.matmul D prec lhs rhs (constant ⟨2, ![M, N]⟩ .f32 0x00000000#32) (ix2 p j)
      = ∑ k : Fin K, lhs (ix2 p k) * rhs (ix2 j k) := by
  rw [Ideal.matmul_constant_zero_apply]
  exact sum_rows D hr hs hl0 hl1 hr0 hr1 lhs rhs p j

/-- The host's `[M, K] · [N, K]`, at `(p, j)`, is `Σ_k lhs (p, k) · rhs (j, k)`. -/
theorem dotGeneral_at {M K N : ℕ} {φ₁ φ₂ : FTy}
    (D : DotDims ⟨2, ![M, K]⟩ ⟨2, ![N, K]⟩ ⟨2, ![M, N]⟩) (prec : Option ContractPrecision)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (i 1).val)
    (hr1 : ∀ (i : (⟨2, ![M, N]⟩ : Shape).Idx) (q : D.contr.Idx), (D.rhsIdx i q 1).val = (q ⟨0, by omega⟩).val)
    (lhs : FVec Ideal ⟨2, ![M, K]⟩ φ₁) (rhs : FVec Ideal ⟨2, ![N, K]⟩ φ₂) (p : Fin M) (j : Fin N) :
    Host.dotGeneral D prec lhs rhs (ix2 p j) = ∑ k : Fin K, lhs (ix2 p k) * rhs (ix2 j k) := by
  show FloatOps.dotGeneral D prec .single lhs rhs (ix2 p j) = _
  rw [Ideal.dotGeneral_apply]
  exact sum_rows D hr hs hl0 hl1 hr0 hr1 lhs rhs p j

end Cert.LibDotRows

end
-- ==== Proof.LibKeepdims.lean ====
/-
  Two layout operations read at an index written by coordinates: the COLUMN forms a sum that keeps its reduced axis
  needs. A vector `[a]` cast to a column `[a, 1]` reads, at `(i, u)`, the vector at `i`; a column `[a, 1]` broadcast over
  `[a, b]` reads, at `(p, c)`, the column at `(p, 0)`. (The row forms, `[a] → [1, a]` and `[1, b] → [a, b]`, are in
  Lib/ValueLayout.lean; these are their transposes, proved the same way.) General: nothing here mentions a program.
-/
import Idealize.ShloMosaic.Lib.Pipeline.Value
import Idealize.ShloMosaic.Lib.ValueIdx

namespace Cert.Keepdims

open Idealize.ShloMosaic Idealize.ShloMosaic.ValueIdx

variable {α : Type}

/-- An `[a]` array cast to `[a, 1]` reads, at `(i, u)`, the operand at `i`, whatever the unit coordinate `u`: the row-major
    positions agree, `i · 1 + 0 = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- ONE COLUMN BROADCAST over many: an `[a, 1]` array broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.PayloadAt.lean ====
/-
  The kernel body's arithmetic at one grid point, read entry by entry over the extended reals.

  At a point the body holds a block of 1024 target rows `x0`, a block of 2048 input rows `x1`, the 1024 target labels `x2`
  and the 2048 input labels `x3`. Its weight block is `exp ((Σ_c x0 p c · x1 q c) · s)` at `(p, q)`, `s` the named
  reciprocal temperature; the numerator row adds to the accumulator, at column `q`, the sum over the rows `p` of the weight
  where the labels of `p` and `q` agree and zero elsewhere; the denominator row adds the plain column sum.
-/
import proofs.«161251_j68083821576868_2_alg».proof.Proof.Gen.KernelIdeal.Skeleton
import proofs.«161251_j68083821576868_2_alg».proof.Proof.Terms
import proofs.«161251_j68083821576868_2_alg».proof.Proof.LibDotRows
import proofs.«161251_j68083821576868_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

noncomputable section

namespace Cert.KernelIdeal.Pay

open Cert.KernelIdeal Cert.KernelIdeal.Gen Idealize.ShloMosaic Idealize.ShloMosaic.ValueIdx

/-- The product's dimension record: both operands contracted on their channel axis. -/
abbrev D : DotDims S1024x128 S2048x128 S1024x2048 := dot_S1024x128_S2048x128_S1024x2048_1_1_0_0_n_n

theorem D_l0 (i : S1024x2048.Idx) (q : D.contr.Idx) : (D.lhsIdx i q 0).val = (i 0).val := by
  unfold DotDims.lhsIdx
  rw [dif_neg (show ¬(0 : Fin S1024x128.rank) ∈ D.lhsBatch by decide), dif_pos (show (0 : Fin S1024x128.rank) ∈ D.lhsNonContracting by decide)]
  rfl
theorem D_l1 (i : S1024x2048.Idx) (q : D.contr.Idx) : (D.lhsIdx i q 1).val = (q ⟨0, by decide⟩).val :=
  D.lhsIdx_val_of_single rfl i q
theorem D_r0 (i : S1024x2048.Idx) (q : D.contr.Idx) : (D.rhsIdx i q 0).val = (i 1).val := by
  unfold DotDims.rhsIdx
  rw [dif_neg (show ¬(0 : Fin S2048x128.rank) ∈ D.rhsBatch by decide), dif_pos (show (0 : Fin S2048x128.rank) ∈ D.rhsNonContracting by decide)]
  rfl
theorem D_r1 (i : S1024x2048.Idx) (q : D.contr.Idx) : (D.rhsIdx i q 1).val = (q ⟨0, by decide⟩).val :=
  D.rhsIdx_val_of_single rfl i q

/-- The named reciprocal temperature is the rational the certificate's table gives it. -/
theorem inv_tau : Named.named (F := Ideal) Cert.KernelIdeal.κ "inv_tau" (φ := .f32) 0x41649249#32 = Cert.Contrast.scale :=
  IdealRules.named_const.ideal_named_scalar _ _ _ _ rfl

/-- The weight block at `(p, q)`. -/
theorem weight_at (x0 : FVec Ideal S1024x128 .bf16) (x1 : FVec Ideal S2048x128 .bf16) (p : Fin 1024) (q : Fin 2048) :
    k0_pay3 (F := Ideal) x0 x1 (ix2 p q)
      = Ideal.exp ((∑ c : Fin 128, x0 (ix2 p c) * x1 (ix2 q c)) * Cert.Contrast.scale) := by
  unfold k0_pay3
  try dsimp only
  rw [shapeCast_self, shapeCast_self]
  show Ideal.exp (FloatOps.matmul D none x0 x1 (constant S1024x2048 .f32 0x00000000#32) (ix2 p q)
      * Named.named (F := Ideal) Cert.KernelIdeal.κ "inv_tau" (φ := .f32) 0x41649249#32) = _
  rw [inv_tau, Cert.LibDotRows.matmul_zero_at D none rfl rfl D_l0 D_l1 D_r0 D_r1 x0 x1 p q]

/-- The label comparison at `(p, q)`: the target label of row `p` against the input label of column `q`. -/
theorem mask_at (x2 : IVec S1x1024 32) (x3 : IVec S1x2048 32) (p : Fin 1024) (q : Fin 2048) :
    cmpi .eq
        (broadcastTo S1024x2048 (transpose S1024x1 [1, 0] (shapeCast S1x1024 x2 shapeCasts_S1x1024_S1x1024) transposes_S1x1024_p1_0_S1024x1) broadcasts_S1024x1_S1024x2048)
        (broadcastTo S1024x2048 (shapeCast S1x2048 x3 shapeCasts_S1x2048_S1x2048) broadcasts_S1x2048_S1024x2048) (ix2 p q)
      = IntOp.cmpi .eq (x2 (ix2 (0 : Fin 1) p)) (x3 (ix2 (0 : Fin 1) q)) := by
  show IntOp.cmpi .eq _ _ = _
  rw [Cert.Keepdims.broadcastTo_a1_ab_apply, transpose_ix2_apply, shapeCast_self, broadcastTo_1b_ab_apply, shapeCast_self]

/-- A sum down the columns of a block, kept as a one-row array: at column `q` the sum over the rows. -/
theorem colsum_at (src : FVec Ideal S1024x2048 .f32) (q : Fin 2048) :
    shapeCast S1x2048 (multiReduction .add [0] S2048 src 0x00000000#32 reduces_S1024x2048_S2048 (.inl rfl) rfl)
        shapeCasts_S2048_S1x2048 (ix2 (0 : Fin 1) q)
      = ∑ p : Fin 1024, src (ix2 p q) := by
  rw [shapeCast_a_1a_apply]
  refine (Ideal.multiReduction_add_single src 0x00000000#32 reduces_S1024x2048_S2048 (.inl rfl) rfl (ix1 q)).trans ?_
  refine Finset.sum_congr rfl fun p _ => congrArg src (funext fun c => Fin.ext ?_)
  rw [Shape.Reduces.lift_val]
  match c with
  | ⟨0, _⟩ => rfl
  | ⟨1, _⟩ => rfl

/-- The numerator row the body stores: the accumulator plus the masked column sum. -/
theorem nom_row_at (x0 : FVec Ideal S1024x128 .bf16) (x1 : FVec Ideal S2048x128 .bf16) (x2 : IVec S1x1024 32) (x3 : IVec S1x2048 32)
    (acc : FVec Ideal S1x2048 .f32) (q : Fin 2048) :
    k0_pay4 (F := Ideal) x0 x1 x2 x3 acc (ix2 (0 : Fin 1) q)
      = acc (ix2 (0 : Fin 1) q)
        + ∑ p : Fin 1024, (if x2 (ix2 (0 : Fin 1) p) = x3 (ix2 (0 : Fin 1) q) then k0_pay3 (F := Ideal) x0 x1 (ix2 p q) else 0) := by
  unfold k0_pay4
  try dsimp only
  refine (addf_apply _ _ _).trans ?_
  refine congrArg₂ (· + ·) (congrFun (shapeCast_self acc _) _) ((colsum_at _ q).trans (Finset.sum_congr rfl fun p _ => ?_))
  refine (select_apply _ _ _ _).trans ?_
  refine (congrArg (fun b => Scalar.select b (k0_pay3 (F := Ideal) x0 x1 (ix2 p q)) (Ideal.ofBits .f32 0x00000000#32)) (mask_at x2 x3 p q)).trans ?_
  rw [Ideal.ofBits_zero_f32]
  exact Cert.Contrast.chosen _ _ _

/-- The denominator row the body stores: the accumulator plus the column sum. -/
theorem den_row_at (x0 : FVec Ideal S1024x128 .bf16) (x1 : FVec Ideal S2048x128 .bf16) (acc : FVec Ideal S1x2048 .f32) (q : Fin 2048) :
    k0_pay5 (F := Ideal) x0 x1 acc (ix2 (0 : Fin 1) q)
      = acc (ix2 (0 : Fin 1) q) + ∑ p : Fin 1024, k0_pay3 (F := Ideal) x0 x1 (ix2 p q) := by
  unfold k0_pay5
  try dsimp only
  refine (addf_apply _ _ _).trans ?_
  exact congrArg₂ (· + ·) (congrFun (shapeCast_self acc _) _) (colsum_at _ q)

/-- The zero row the first reduction step stores. -/
theorem zero_row_at (q : Fin 2048) : k0_pay1 (F := Ideal) (ix2 (0 : Fin 1) q) = 0 := by
  unfold k0_pay1
  exact Ideal.ofBits_zero_f32
theorem zero_row_at' (q : Fin 2048) : k0_pay2 (F := Ideal) (ix2 (0 : Fin 1) q) = 0 := by
  unfold k0_pay2
  exact Ideal.ofBits_zero_f32

end Cert.KernelIdeal.Pay

end
-- ==== Proof.Chain.lean ====
/-
  The two accumulator rows after each grid point.

  Fix the tile `i` of 2048 input columns. Going through the eight tiles `j` of 1024 target rows, the numerator row starts
  from zero at `j = 0` and each step adds, at column `q`, the sum over the tile's rows of the weight where the labels
  agree; the denominator row adds the plain sum. So after step `j` the rows hold the running sums `accB … (j + 1)` of the
  masked weights, and of the weights, of column `2048·i + q`: the first `j + 1` blocks of 1024 rows.
-/
import proofs.«161251_j68083821576868_2_alg».proof.Proof.Pieces
import proofs.«161251_j68083821576868_2_alg».proof.Proof.Blocks
import proofs.«161251_j68083821576868_2_alg».proof.Proof.PayloadAt

noncomputable section

namespace Cert.KernelIdeal.Chain

open Cert.KernelIdeal Cert.KernelIdeal.Gen Idealize.ShloMosaic Idealize.ShloMosaic.TcCoe Idealize.SL.Sem
open Idealize.ShloMosaic.ValueIdx Cert.Contrast Cert.LibRowBlocks

/-! ## One step, over plain variables -/

section Step
variable (nt ni : Fin 8192 → Fin 128 → EReal) (pt pi : Fin 8192 → BitVec 32)
variable (x0 : FVec Ideal S1024x128 .bf16) (x1 : FVec Ideal S2048x128 .bf16) (x2 : IVec S1x1024 32) (x3 : IVec S1x2048 32)
variable (i j : ℕ) (hi : i < 4) (hj : j < 8)

/-- The weight block of a step whose blocks are rows `1024·j + p` of the targets and `2048·i + q` of the inputs. -/
theorem weight_step
    (h0 : ∀ (p : Fin 1024) (ch : Fin 128), x0 (ix2 p ch) = nt ⟨1024 * j + p.val, by have := p.isLt; omega⟩ ch)
    (h1 : ∀ (q : Fin 2048) (ch : Fin 128), x1 (ix2 q ch) = ni ⟨2048 * i + q.val, by have := q.isLt; omega⟩ ch)
    (p : Fin 1024) (q : Fin 2048) :
    k0_pay3 (F := Ideal) x0 x1 (ix2 p q)
      = weight nt ni ⟨1024 * j + p.val, by have := p.isLt; omega⟩ ⟨2048 * i + q.val, by have := q.isLt; omega⟩ := by
  rw [Pay.weight_at]
  unfold weight sim
  simp only [h0, h1]

/-- The numerator row after the step is the running sum one block further. -/
theorem nom_step (acc : FVec Ideal S1x2048 .f32)
    (h0 : ∀ (p : Fin 1024) (ch : Fin 128), x0 (ix2 p ch) = nt ⟨1024 * j + p.val, by have := p.isLt; omega⟩ ch)
    (h1 : ∀ (q : Fin 2048) (ch : Fin 128), x1 (ix2 q ch) = ni ⟨2048 * i + q.val, by have := q.isLt; omega⟩ ch)
    (h2 : ∀ p : Fin 1024, x2 (ix2 (0 : Fin 1) p) = pt ⟨1024 * j + p.val, by have := p.isLt; omega⟩)
    (h3 : ∀ q : Fin 2048, x3 (ix2 (0 : Fin 1) q) = pi ⟨2048 * i + q.val, by have := q.isLt; omega⟩)
    (q : Fin 2048)
    (hacc : acc (ix2 (0 : Fin 1) q) = accB (masked nt ni pt pi ⟨2048 * i + q.val, by have := q.isLt; omega⟩) j) :
    k0_pay4 (F := Ideal) x0 x1 x2 x3 acc (ix2 (0 : Fin 1) q)
      = accB (masked nt ni pt pi ⟨2048 * i + q.val, by have := q.isLt; omega⟩) (j + 1) := by
  rw [Pay.nom_row_at, hacc, accB_succ _ j hj]
  refine congrArg (_ + ·) (Finset.sum_congr rfl fun p _ => ?_)
  rw [weight_step nt ni x0 x1 i j hi hj h0 h1 p q, h2, h3]
  rfl

/-- The denominator row after the step is the running sum one block further. -/
theorem den_step (acc : FVec Ideal S1x2048 .f32)
    (h0 : ∀ (p : Fin 1024) (ch : Fin 128), x0 (ix2 p ch) = nt ⟨1024 * j + p.val, by have := p.isLt; omega⟩ ch)
    (h1 : ∀ (q : Fin 2048) (ch : Fin 128), x1 (ix2 q ch) = ni ⟨2048 * i + q.val, by have := q.isLt; omega⟩ ch)
    (q : Fin 2048)
    (hacc : acc (ix2 (0 : Fin 1) q) = accB (fun a => weight nt ni a ⟨2048 * i + q.val, by have := q.isLt; omega⟩) j) :
    k0_pay5 (F := Ideal) x0 x1 acc (ix2 (0 : Fin 1) q)
      = accB (fun a => weight nt ni a ⟨2048 * i + q.val, by have := q.isLt; omega⟩) (j + 1) := by
  rw [Pay.den_row_at, hacc, accB_succ _ j hj]
  refine congrArg (_ + ·) (Finset.sum_congr rfl fun p _ => ?_)
  exact weight_step nt ni x0 x1 i j hi hj h0 h1 p q

end Step

/-! ## The arrays the region finds, as plain functions -/

variable (m : (ℓ : Loc nD τ sig) → Buf (Elt Ideal) ℓ)

/-- The normalised target rows. -/
def NT (c : Dev nD) : Fin 8192 → Fin 128 → EReal := fun a ch => (V m c main_v15 : S8192x128.Idx → Elt Ideal .bf16) (ix2 a ch)
/-- The normalised input rows. -/
def NI (c : Dev nD) : Fin 8192 → Fin 128 → EReal := fun b ch => (V m c main_v14 : S8192x128.Idx → Elt Ideal .bf16) (ix2 b ch)
/-- The target labels. -/
def PT (c : Dev nD) : Fin 8192 → BitVec 32 := fun a => (V m c main_v18 : S1x8192.Idx → Elt Ideal .i32) (ix2 (0 : Fin 1) a)
/-- The input labels. -/
def PI (c : Dev nD) : Fin 8192 → BitVec 32 := fun b => (V m c main_v19 : S1x8192.Idx → Elt Ideal .i32) (ix2 (0 : Fin 1) b)

/-- The blocks of point `t` are the rows and labels of its two tiles. -/
theorem blocks_at (c : Dev nD) (t : Fin cfg0.N) (i j : ℕ) (hi : t.val / 8 = i) (hj : t.val % 8 = j) :
    (∀ (p : Fin 1024) (ch : Fin 128), (iblk m c 0 t : FVec Ideal S1024x128 .bf16) (ix2 p ch)
        = NT m c ⟨1024 * j + p.val, by have := p.isLt; omega⟩ ch)
    ∧ (∀ (q : Fin 2048) (ch : Fin 128), (iblk m c 1 t : FVec Ideal S2048x128 .bf16) (ix2 q ch)
        = NI m c ⟨2048 * i + q.val, by have := q.isLt; have := lt_of_lt_of_eq t.isLt N_0; omega⟩ ch)
    ∧ (∀ p : Fin 1024, (iblk m c 2 t : IVec S1x1024 32) (ix2 (0 : Fin 1) p) = PT m c ⟨1024 * j + p.val, by have := p.isLt; omega⟩)
    ∧ (∀ q : Fin 2048, (iblk m c 3 t : IVec S1x2048 32) (ix2 (0 : Fin 1) q)
        = PI m c ⟨2048 * i + q.val, by have := q.isLt; have := lt_of_lt_of_eq t.isLt N_0; omega⟩) := by
  subst hi hj
  exact ⟨fun p ch => Blocks.nt_block m c t p ch _ rfl rfl, fun q ch => Blocks.ni_block m c t q ch _ rfl rfl,
    fun p => Blocks.pt_block m c t p _ rfl rfl, fun q => Blocks.pi_block m c t q _ rfl rfl⟩

/-! ## The rows after each point -/

/-- After point `n`, of tile `i = n / 8` and step `j = n % 8`, the two rows hold the running sums over the first `j + 1` blocks. -/
theorem outs_eq (c : Dev nD) (n : ℕ) : ∀ (h : n < cfg0.N) (i j : ℕ) (hi4 : i < 4) (hi : n / 8 = i) (hj : n % 8 = j) (q : Fin 2048),
    (outsAt0 m c n h).1 (ix2 (0 : Fin 1) q)
        = accB (masked (NT m c) (NI m c) (PT m c) (PI m c) ⟨2048 * i + q.val, by have := q.isLt; omega⟩) (j + 1)
    ∧ (outsAt0 m c n h).2 (ix2 (0 : Fin 1) q)
        = accB (fun a => weight (NT m c) (NI m c) a ⟨2048 * i + q.val, by have := q.isLt; omega⟩) (j + 1) := by
  induction n using Nat.strong_induction_on with
  | _ n ih =>
    intro h i j hi4 hi hj q
    have hN : n < 32 := lt_of_lt_of_eq h N_0
    have hj8 : j < 8 := by omega
    obtain ⟨b0, b1, b2, b3⟩ := blocks_at m c ⟨n, h⟩ i j hi hj
    by_cases h0 : n % 8 = 0
    · have hj0 : j = 0 := by omega
      subst hj0
      rw [outsAt0_A m c ⟨n, h⟩ h0]
      dsimp only
      refine ⟨?_, ?_⟩
      · refine (congrFun (Pieces.first_nom (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) ((hcond0_0 ⟨n, h⟩).mpr h0) (iblk m c 0 ⟨n, h⟩) (iblk m c 1 ⟨n, h⟩) (iblk m c 2 ⟨n, h⟩) (iblk m c 3 ⟨n, h⟩)) (ix2 (0 : Fin 1) q)).trans ?_
        exact nom_step (NT m c) (NI m c) (PT m c) (PI m c) (iblk m c 0 ⟨n, h⟩) (iblk m c 1 ⟨n, h⟩) (iblk m c 2 ⟨n, h⟩) (iblk m c 3 ⟨n, h⟩) i 0 hi4 hj8
          (k0_pay1 (F := Ideal)) b0 b1 b2 b3 q ((Pay.zero_row_at q).trans (accB_zero _).symm)
      · refine (congrFun (Pieces.first_den (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) ((hcond0_0 ⟨n, h⟩).mpr h0) (iblk m c 0 ⟨n, h⟩) (iblk m c 1 ⟨n, h⟩) (iblk m c 2 ⟨n, h⟩) (iblk m c 3 ⟨n, h⟩)) (ix2 (0 : Fin 1) q)).trans ?_
        exact den_step (NT m c) (NI m c) (iblk m c 0 ⟨n, h⟩) (iblk m c 1 ⟨n, h⟩) i 0 hi4 hj8
          (k0_pay2 (F := Ideal)) b0 b1 q ((Pay.zero_row_at' q).trans (accB_zero _).symm)
    · obtain ⟨j', rfl⟩ : ∃ j', j = j' + 1 := ⟨j - 1, by omega⟩
      obtain ⟨ih1, ih2⟩ := ih (n - 1) (by omega) (Nat.lt_of_le_of_lt (Nat.sub_le _ _) h) i j' hi4 (by omega) (by omega) q
      rw [outsAt0_B m c ⟨n, h⟩ h0]
      dsimp only
      refine ⟨?_, ?_⟩
      · refine (congrFun (Pieces.later_nom (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (fun hh => h0 ((hcond0_0 ⟨n, h⟩).mp hh)) (iblk m c 0 ⟨n, h⟩) (iblk m c 1 ⟨n, h⟩) (iblk m c 2 ⟨n, h⟩) (iblk m c 3 ⟨n, h⟩) _ _) (ix2 (0 : Fin 1) q)).trans ?_
        exact nom_step (NT m c) (NI m c) (PT m c) (PI m c) (iblk m c 0 ⟨n, h⟩) (iblk m c 1 ⟨n, h⟩) (iblk m c 2 ⟨n, h⟩) (iblk m c 3 ⟨n, h⟩) i (j' + 1) hi4 hj8
          _ b0 b1 b2 b3 q ih1
      · refine (congrFun (Pieces.later_den (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (fun hh => h0 ((hcond0_0 ⟨n, h⟩).mp hh)) (iblk m c 0 ⟨n, h⟩) (iblk m c 1 ⟨n, h⟩) (iblk m c 2 ⟨n, h⟩) (iblk m c 3 ⟨n, h⟩) _ _) (ix2 (0 : Fin 1) q)).trans ?_
        exact den_step (NT m c) (NI m c) (iblk m c 0 ⟨n, h⟩) (iblk m c 1 ⟨n, h⟩) i (j' + 1) hi4 hj8
          _ b0 b1 q ih2

end Cert.KernelIdeal.Chain

end
-- ==== Proof.Arrays.lean ====
/-
  The two output arrays after the whole grid.

  Each tile of 2048 columns is written back once, after its eighth reduction step, when its rows hold the running sums
  over all eight blocks of target rows: the full sums over the 8192 rows. The four tiles cover the 8192 columns, so the
  first output array holds the numerator of every column and the second the denominator.
-/
import proofs.«161251_j68083821576868_2_alg».proof.Proof.Chain

noncomputable section

namespace Cert.KernelIdeal.Arrays

open Cert.KernelIdeal Cert.KernelIdeal.Gen Idealize.ShloMosaic Idealize.ShloMosaic.TcCoe Idealize.SL.Sem
open Idealize.ShloMosaic.Pipeline (Dat)
open Idealize.ShloMosaic.ValueIdx Cert.Contrast Cert.LibRowBlocks Cert.KernelIdeal.Chain

variable (m : (ℓ : Loc nD τ sig) → Buf (Elt Ideal) ℓ)

/-- The numerator of every column, as contents of the first output array. -/
def nomArr (c : Dev nD) : Buf (Elt Ideal) ((c : Thread nD τ).loc main_v20_0) :=
  fun (i : S1x8192.Idx) => (nom (NT m c) (NI m c) (PT m c) (PI m c) ⟨(i 1).val, idx2_lt1 i⟩ : EReal)

/-- The last step of a tile writes back that tile's 2048 columns of it. -/
theorem flushed_nom (c : Dev nD) (t : Fin cfg0.N) (hf : (cfg0.win 4).flush t = true) :
    (dats m 0 c).flushed 4 t = ((cfg0.win 4).blk t).view.read (Elt Ideal) (nomArr m c) := by
  have hN : t.val < 32 := lt_of_lt_of_eq t.isLt N_0
  have h7 : t.val % 8 = 7 := (flush0_4 t).mp hf
  obtain ⟨-, -, -, -, -, -, -, -, h0, h1, -⟩ := Blocks.idx_facts t
  show (cfg0.win 4).cut (grid0.coords t) ((dats m 0 c).after 4 t) = _
  rw [after0_4]
  funext y
  have hy0 : (y 0).val < 1 := (y 0).isLt
  have hy1 : (y 1).val < 2048 := (y 1).isLt
  have hx : (cfg0.win 4).xinj (grid0.coords t) y = ix2 (0 : Fin 1) (⟨(y 1).val, hy1⟩ : Fin 2048) := funext fun a => Fin.ext (by
    match a with
    | ⟨0, _⟩ => show (y 0).val = 0; omega
    | ⟨1, _⟩ => rfl)
  show (outsAt0 m c t.val t.isLt).1 ((cfg0.win 4).xinj (grid0.coords t) y) = _
  rw [hx, View.read_apply]
  refine ((outs_eq m c t.val t.isLt (t.val / 8) 7 (by omega) rfl h7 ⟨(y 1).val, hy1⟩).1).trans ?_
  unfold nomArr
  rw [nom_blocks]
  refine congrArg (fun b => accB (masked (NT m c) (NI m c) (PT m c) (PI m c) b) 8) (Fin.ext ?_)
  show 2048 * (t.val / 8) + (y 1).val = win0_4.index t (1 : Fin 2) * 2048 + 1 * (y 1).val
  rw [h1]; omega

/-- An index of the array is in point `t`'s block iff each coordinate is in the block's range. -/
theorem mem_blk_nom (t : Fin cfg0.N) (i : S1x8192.Idx) :
    i ∈ ((cfg0.win 4).blk t).view.set ↔ ∀ a : Fin 2, win0_4.index t a * S1x2048.size a ≤ (i a).val ∧ (i a).val < win0_4.index t a * S1x2048.size a + S1x2048.size a := by
  show i ∈ ((View.whole main_v20_0).slice (win0_4.rect t)).set ↔ _
  rw [View.set_slice_whole, Rect.mem_set_unit]
  exact Iff.rfl

/-- Column `b` is written back by the last step of tile `b / 2048`. -/
theorem cover_nom (i : S1x8192.Idx) : ∃ t : Fin cfg0.N, (cfg0.win 4).flush t = true ∧ i ∈ ((cfg0.win 4).blk t).view.set := by
  have hi0 : (i 0).val < 1 := (i 0).isLt
  have hi1 : (i 1).val < 8192 := (i 1).isLt
  have hN : cfg0.N = 32 := N_0
  obtain ⟨t, ht⟩ : ∃ t : Fin cfg0.N, t.val = 8 * ((i 1).val / 2048) + 7 := ⟨⟨8 * ((i 1).val / 2048) + 7, by rw [hN]; omega⟩, rfl⟩
  obtain ⟨-, -, -, -, -, -, -, -, h0, h1, -⟩ := Blocks.idx_facts t
  refine ⟨t, (flush0_4 t).mpr (by omega), ?_⟩
  rw [mem_blk_nom]
  intro a
  match a with
  | ⟨0, _⟩ => show win0_4.index t (0 : Fin 2) * 1 ≤ (i 0).val ∧ (i 0).val < win0_4.index t (0 : Fin 2) * 1 + 1; omega
  | ⟨1, _⟩ => show win0_4.index t (1 : Fin 2) * 2048 ≤ (i 1).val ∧ (i 1).val < win0_4.index t (1 : Fin 2) * 2048 + 2048; omega

/-- So the array ends holding it. -/
theorem final_nom (c : Dev nD) : (dats m 0 c).arrAt 4 cfg0.N = nomArr m c :=
  (dats m 0 c).arrAt_eq_of_cover 4 (nomArr m c) (flushed_nom m c) cover_nom

/-- The denominator of every column, as contents of the second output array. -/
def denArr (c : Dev nD) : Buf (Elt Ideal) ((c : Thread nD τ).loc main_v20_1) :=
  fun (i : S1x8192.Idx) => (den (NT m c) (NI m c) ⟨(i 1).val, idx2_lt1 i⟩ : EReal)

/-- The last step of a tile writes back that tile's 2048 columns of it. -/
theorem flushed_den (c : Dev nD) (t : Fin cfg0.N) (hf : (cfg0.win 5).flush t = true) :
    (dats m 0 c).flushed 5 t = ((cfg0.win 5).blk t).view.read (Elt Ideal) (denArr m c) := by
  have hN : t.val < 32 := lt_of_lt_of_eq t.isLt N_0
  have h7 : t.val % 8 = 7 := (flush0_5 t).mp hf
  obtain ⟨-, -, -, -, -, -, -, -, -, -, h0, h1⟩ := Blocks.idx_facts t
  show (cfg0.win 5).cut (grid0.coords t) ((dats m 0 c).after 5 t) = _
  rw [after0_5]
  funext y
  have hy0 : (y 0).val < 1 := (y 0).isLt
  have hy1 : (y 1).val < 2048 := (y 1).isLt
  have hx : (cfg0.win 5).xinj (grid0.coords t) y = ix2 (0 : Fin 1) (⟨(y 1).val, hy1⟩ : Fin 2048) := funext fun a => Fin.ext (by
    match a with
    | ⟨0, _⟩ => show (y 0).val = 0; omega
    | ⟨1, _⟩ => rfl)
  show (outsAt0 m c t.val t.isLt).2 ((cfg0.win 5).xinj (grid0.coords t) y) = _
  rw [hx, View.read_apply]
  refine ((outs_eq m c t.val t.isLt (t.val / 8) 7 (by omega) rfl h7 ⟨(y 1).val, hy1⟩).2).trans ?_
  unfold denArr
  rw [den_blocks]
  refine congrArg (fun b => accB (fun a => weight (NT m c) (NI m c) a b) 8) (Fin.ext ?_)
  show 2048 * (t.val / 8) + (y 1).val = win0_5.index t (1 : Fin 2) * 2048 + 1 * (y 1).val
  rw [h1]; omega

/-- An index of the array is in point `t`'s block iff each coordinate is in the block's range. -/
theorem mem_blk_den (t : Fin cfg0.N) (i : S1x8192.Idx) :
    i ∈ ((cfg0.win 5).blk t).view.set ↔ ∀ a : Fin 2, win0_5.index t a * S1x2048.size a ≤ (i a).val ∧ (i a).val < win0_5.index t a * S1x2048.size a + S1x2048.size a := by
  show i ∈ ((View.whole main_v20_1).slice (win0_5.rect t)).set ↔ _
  rw [View.set_slice_whole, Rect.mem_set_unit]
  exact Iff.rfl

/-- Column `b` is written back by the last step of tile `b / 2048`. -/
theorem cover_den (i : S1x8192.Idx) : ∃ t : Fin cfg0.N, (cfg0.win 5).flush t = true ∧ i ∈ ((cfg0.win 5).blk t).view.set := by
  have hi0 : (i 0).val < 1 := (i 0).isLt
  have hi1 : (i 1).val < 8192 := (i 1).isLt
  have hN : cfg0.N = 32 := N_0
  obtain ⟨t, ht⟩ : ∃ t : Fin cfg0.N, t.val = 8 * ((i 1).val / 2048) + 7 := ⟨⟨8 * ((i 1).val / 2048) + 7, by rw [hN]; omega⟩, rfl⟩
  obtain ⟨-, -, -, -, -, -, -, -, -, -, h0, h1⟩ := Blocks.idx_facts t
  refine ⟨t, (flush0_5 t).mpr (by omega), ?_⟩
  rw [mem_blk_den]
  intro a
  match a with
  | ⟨0, _⟩ => show win0_5.index t (0 : Fin 2) * 1 ≤ (i 0).val ∧ (i 0).val < win0_5.index t (0 : Fin 2) * 1 + 1; omega
  | ⟨1, _⟩ => show win0_5.index t (1 : Fin 2) * 2048 ≤ (i 1).val ∧ (i 1).val < win0_5.index t (1 : Fin 2) * 2048 + 2048; omega

/-- So the array ends holding it. -/
theorem final_den (c : Dev nD) : (dats m 0 c).arrAt 5 cfg0.N = denArr m c :=
  (dats m 0 c).arrAt_eq_of_cover 5 (denArr m c) (flushed_den m c) cover_den

end Cert.KernelIdeal.Arrays

end
-- ==== Proof.RefStages.lean ====
/-
  The reference's numerator and denominator, read column by column.

  The reference forms the whole 8192 × 8192 weight matrix `exp (sim a b / τ)` and the 0/1 matrix `d a b` of "labels
  differ"; its numerator of column `b` is `0 + Σ_a (1 − d a b) · w a b`, its denominator `(0 + Σ_a d a b · w a b)` plus
  the numerator. Entry by entry `(1 − d) · w` is the weight where the labels agree and zero elsewhere, and
  `d · w + (1 − d) · w = w`, so the two are the masked sum and the plain sum of the weights; and the quotient by `τ` is
  the product with `1/τ`.
-/
import proofs.«161251_j68083821576868_2_alg».proof.Proof.Gen.ReferenceIdeal.Run
import proofs.«161251_j68083821576868_2_alg».proof.Proof.Gen.ReferenceIdeal.Read
import proofs.«161251_j68083821576868_2_alg».proof.Proof.Terms
import Idealize.ShloMosaic.Lib.ValueIdx

noncomputable section

namespace Cert.ReferenceIdeal.Stages

open Cert.ReferenceIdeal Cert.ReferenceIdeal.Read Idealize.ShloMosaic Idealize.ShloMosaic.ValueIdx Cert.Contrast

variable (x0 x1 : (⟨S2x128x64x64, .f32⟩ : BufTy).Contents (Elt Ideal)) (x2 x3 : (⟨S2x64x64, .i32⟩ : BufTy).Contents (Elt Ideal))

/-- The reference's normalised target rows, input rows, target labels and input labels, as plain functions. -/
def RT : Fin 8192 → Fin 128 → EReal := fun a ch => val_main_v13 (F := Ideal) x1 (ix2 a ch)
def RI : Fin 8192 → Fin 128 → EReal := fun b ch => val_main_v6 (F := Ideal) x0 (ix2 b ch)
def RPT : Fin 8192 → BitVec 32 := fun a => val_main_v15 (F := Ideal) x3 (ix1 a)
def RPI : Fin 8192 → BitVec 32 := fun b => val_main_v14 (F := Ideal) x2 (ix1 b)

/-! ## The stages' index maps at coordinates -/

theorem lidx_eq (a b : Fin 8192) (k : Fin 128) : lidx_main_v16 (ix2 a b) k = ix2 a k :=
  funext fun d => Fin.ext (by match d with | ⟨0, _⟩ => rfl | ⟨1, _⟩ => rfl)
theorem ridx_eq (a b : Fin 8192) (k : Fin 128) : ridx_main_v16 (ix2 a b) k = ix2 b k :=
  funext fun d => Fin.ext (by match d with | ⟨0, _⟩ => rfl | ⟨1, _⟩ => rfl)
theorem idx29_eq (b a : Fin 8192) : idx_main_v29 (ix1 b) a = ix2 a b :=
  funext fun d => Fin.ext (by match d with | ⟨0, _⟩ => rfl | ⟨1, _⟩ => rfl)
theorem idx31_eq (b a : Fin 8192) : idx_main_v31 (ix1 b) a = ix2 a b :=
  funext fun d => Fin.ext (by match d with | ⟨0, _⟩ => rfl | ⟨1, _⟩ => rfl)
theorem idx22_eq (a b : Fin 8192) : idx_main_v22 (ix2 a b) = ix2 (0 : Fin 1) b :=
  funext fun d => Fin.ext (by match d with | ⟨0, _⟩ => rfl | ⟨1, _⟩ => rfl)
theorem idx20_eq (b : Fin 8192) : idx_main_v20 (ix2 (0 : Fin 1) b) = ix1 b :=
  funext fun d => Fin.ext (by match d with | ⟨0, _⟩ => rfl)
theorem idx23_eq (a b : Fin 8192) : idx_main_v23 (ix2 a b) = ix2 a (0 : Fin 1) :=
  funext fun d => Fin.ext (by match d with | ⟨0, _⟩ => rfl | ⟨1, _⟩ => rfl)
theorem idx21_eq (a : Fin 8192) : idx_main_v21 (ix2 a (0 : Fin 1)) = ix1 a :=
  funext fun d => Fin.ext (by match d with | ⟨0, _⟩ => rfl)

/-! ## The stages -/

/-- The weight matrix at `(a, b)`. -/
theorem weight_at (a b : Fin 8192) : val_main_v19 (F := Ideal) x0 x1 (ix2 a b) = weight (RT x1) (RI x0) a b := by
  rw [val_main_v19_apply, val_main_v18_apply, val_main_v17_apply, val_main_cst_1_apply, val_main_v16_apply]
  simp only [lidx_eq, ridx_eq]
  exact congrArg Ideal.exp (div_tau _)

/-- The "labels differ" matrix at `(a, b)`, as a number. -/
theorem diff_at (a b : Fin 8192) :
    val_main_v25 (F := Ideal) x2 x3 (ix2 a b) = (((IntOp.cmpi .ne (RPI x2 b) (RPT x3 a)).toNat : ℝ) : EReal) := by
  rw [val_main_v25_apply, val_main_v24_apply, val_main_v22_apply, val_main_v20_apply, val_main_v23_apply, val_main_v21_apply]
  simp only [idx22_eq, idx20_eq, idx23_eq, idx21_eq]
  rfl

/-- The numerator of column `b`. -/
theorem nom_at (b : Fin 8192) :
    val_main_v29 (F := Ideal) x0 x1 x2 x3 (ix1 b) = nom (RT x1) (RI x0) (RPT x3) (RPI x2) b := by
  rw [val_main_v29_apply, val_main_cst_3_apply]
  show Ideal.ofBits .f32 0x00000000#32 + _ = _
  rw [Ideal.ofBits_zero_f32, zero_add]
  unfold nom
  refine Finset.sum_congr rfl fun a _ => ?_
  rw [idx29_eq, val_main_v28_apply, val_main_v27_apply, val_main_v26_apply, val_main_cst_2_apply, weight_at, diff_at]
  show (Ideal.ofBits .f32 0x3F800000#32 - _) * _ = _
  rw [word_one]
  exact kept _ _ _

/-- The denominator of column `b`. -/
theorem den_at (b : Fin 8192) :
    val_main_v32 (F := Ideal) x0 x1 x2 x3 (ix1 b) = den (RT x1) (RI x0) b := by
  rw [val_main_v32_apply, val_main_v31_apply, val_main_cst_4_apply, nom_at]
  show (Ideal.ofBits .f32 0x00000000#32 + _) + _ = _
  rw [Ideal.ofBits_zero_f32, zero_add]
  unfold nom den
  rw [← Finset.sum_add_distrib]
  refine Finset.sum_congr rfl fun a _ => ?_
  rw [idx31_eq, val_main_v30_apply, diff_at, weight_at]
  unfold masked
  rw [← kept]
  exact split _ _ _

end Cert.ReferenceIdeal.Stages

end
-- ==== Proof.HostSides.lean ====
/-
  The program around the grid, and its result.

  Before the grid the program normalises the rows of both embeddings (each row divided by the larger of its Euclidean
  norm and a small constant), changes their float format (the identity on extended reals) and lays the two label
  arrays out as one-row arrays: the arrays the grid reads are the reference's own normalised rows and labels.
  After the grid it turns the two one-row outputs into vectors and takes `−(Σ_b log (nom b / (den b + ε))) / 8192`,
  the same last operations as the reference's. So the result is that expression of the numerators and denominators
  of the columns, which are the reference's column by column.
-/
import proofs.«161251_j68083821576868_2_alg».proof.Proof.Arrays
import proofs.«161251_j68083821576868_2_alg».proof.Proof.RefStages
import Idealize.ShloMosaic.Lib.Pipeline.Value
import Idealize.ShloMosaic.Lib.StableHlo.Run
import Idealize.ShloMosaic.Lib.Tactic
import Idealize.ShloMosaic.Lib.ValueLayout

noncomputable section

namespace Cert.KernelIdeal.Host

open Cert.KernelIdeal Cert.KernelIdeal.Gen Idealize.ShloMosaic Idealize.ShloMosaic.TcCoe Idealize.SL.Sem Idealize.ShloMosaic.StableHlo
open Idealize.ShloMosaic.Pipeline (Dat)
open Idealize.ShloMosaic.ValueIdx Cert.Contrast Cert.KernelIdeal.Chain Cert.KernelIdeal.Arrays

variable (m : (ℓ : Loc nD τ sig) → Buf (Elt Ideal) ℓ) (ρ : Dev nD → PrngReg)

/-! ## Before the grid -/

/-- The target rows the grid reads are the reference's normalised target rows. -/
theorem targets_eq (c : Dev nD) : (V m c main_v15 : S8192x128.Idx → EReal)
    = Cert.ReferenceIdeal.Read.val_main_v13 (F := Ideal) (m ((c : Thread nD τ).loc main_arg1)) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

/-- The input rows the grid reads are the reference's normalised input rows. -/
theorem inputs_eq (c : Dev nD) : (V m c main_v14 : S8192x128.Idx → EReal)
    = Cert.ReferenceIdeal.Read.val_main_v6 (F := Ideal) (m ((c : Thread nD τ).loc main_arg0)) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

/-- The target labels the grid reads are the reference's flattened target labels, as one row. -/
theorem tlabels_eq (c : Dev nD) : (V m c main_v18 : S1x8192.Idx → BitVec 32)
    = shapeCast S1x8192 (Cert.ReferenceIdeal.Read.val_main_v15 (F := Ideal) (m ((c : Thread nD τ).loc main_arg3))) shapeCasts_S8192_S1x8192 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

/-- The input labels the grid reads are the reference's flattened input labels, as one row. -/
theorem ilabels_eq (c : Dev nD) : (V m c main_v19 : S1x8192.Idx → BitVec 32)
    = shapeCast S1x8192 (Cert.ReferenceIdeal.Read.val_main_v14 (F := Ideal) (m ((c : Thread nD τ).loc main_arg2))) shapeCasts_S8192_S1x8192 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

theorem NT_eq (c : Dev nD) : NT m c = Cert.ReferenceIdeal.Stages.RT (m ((c : Thread nD τ).loc main_arg1)) := by
  funext a ch
  exact congrFun (targets_eq m c) (ix2 a ch)
theorem NI_eq (c : Dev nD) : NI m c = Cert.ReferenceIdeal.Stages.RI (m ((c : Thread nD τ).loc main_arg0)) := by
  funext b ch
  exact congrFun (inputs_eq m c) (ix2 b ch)
theorem PT_eq (c : Dev nD) : PT m c = Cert.ReferenceIdeal.Stages.RPT (m ((c : Thread nD τ).loc main_arg3)) := by
  funext a
  refine (congrFun (tlabels_eq m c) (ix2 (0 : Fin 1) a)).trans ?_
  exact shapeCast_a_1a_apply _ _ 0 a
theorem PI_eq (c : Dev nD) : PI m c = Cert.ReferenceIdeal.Stages.RPI (m ((c : Thread nD τ).loc main_arg2)) := by
  funext b
  refine (congrFun (ilabels_eq m c) (ix2 (0 : Fin 1) b)).trans ?_
  exact shapeCast_a_1a_apply _ _ 0 b

/-! ## After the grid -/

/-- The loss of the columns' numerators and denominators: minus the mean of `log (nom / (den + ε))`. -/
def loss (nomv denv : FVec Ideal S8192 .f32) : FVec Ideal S_ .f32 :=
  Host.negf (F := Ideal) (Host.divf (F := Ideal)
    (Host.reduceAdd (F := Ideal)
      (Host.log (F := Ideal) (Host.divf (F := Ideal) nomv
        (addf denv (broadcastInDim S8192 ![] bcast_S_S8192 (constant (F := Ideal) S_ .f32 0x322BCC77#32)))))
      (constant (F := Ideal) S_ .f32 0x00000000#32) reducesTo_S8192_S_d0 h_S_)
    (constant (F := Ideal) S_ .f32 0x46000000#32))

/-- The program's result is the loss of the two output arrays read as vectors. -/
theorem tail_eq (c : Dev nD) : Pipeline.afterTail₀ cfgs (dats m) 0 (V0 m) [hostOps1] c main_v29
    = loss (shapeCast S8192 (nomArr m c) shapeCasts_S1x8192_S8192) (shapeCast S8192 (denArr m c) shapeCasts_S1x8192_S8192) := by
  have e4 : Pipeline.withArrays (cfgs 0).spec c (V0 m c) (fun w => (dats m 0 c).arrAt w (cfgs 0).N) (Proc.tc.devRef main_v20_0) = nomArr m c :=
    (Pipeline.withArrays_arr spec0 launch0.win.arr_inj c (V0 m c) (fun w => (dats m 0 c).arrAt w cfg0.N) 4).trans (final_nom m c)
  have e5 : Pipeline.withArrays (cfgs 0).spec c (V0 m c) (fun w => (dats m 0 c).arrAt w (cfgs 0).N) (Proc.tc.devRef main_v20_1) = denArr m c :=
    (Pipeline.withArrays_arr spec0 launch0.win.arr_inj c (V0 m c) (fun w => (dats m 0 c).arrAt w cfg0.N) 5).trans (final_den m c)
  unfold Pipeline.afterTail₀
  show StableHlo.after hostOps1 _ (Proc.devRef .tc main_v29) = _
  after_results
  rw [e4, e5]
  rfl

/-- The kernel program's run: the result at the loss of the two arrays, the arguments unchanged. -/
theorem run : θ_run defs (onTc (τ := τ) (main (F := Ideal))) ⟨m, fun _ => 0, ρ⟩ fun r => ∀ c : Dev nD,
      r.2.mem ((c.tc : Thread nD τ).loc main_v29)
        = loss (shapeCast S8192 (nomArr m c) shapeCasts_S1x8192_S8192) (shapeCast S8192 (denArr m c) shapeCasts_S1x8192_S8192)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).2 main_v29 (Pipeline.mem_restRefs_of main_v29 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

/-! ## Against the reference -/

/-- The reference's result is the same loss of its own numerators and denominators. -/
theorem ref_result (x0 x1 : (⟨Cert.ReferenceIdeal.S2x128x64x64, .f32⟩ : BufTy).Contents (Elt Ideal))
    (x2 x3 : (⟨Cert.ReferenceIdeal.S2x64x64, .i32⟩ : BufTy).Contents (Elt Ideal)) :
    Cert.ReferenceIdeal.Read.val_main_v39 (F := Ideal) x0 x1 x2 x3
      = loss (Cert.ReferenceIdeal.Read.val_main_v29 (F := Ideal) x0 x1 x2 x3) (Cert.ReferenceIdeal.Read.val_main_v32 (F := Ideal) x0 x1 x2 x3) := rfl

/-- The kernel's numerators are the reference's, column by column. -/
theorem nom_cols (c : Dev nD) : shapeCast S8192 (nomArr m c) shapeCasts_S1x8192_S8192
    = Cert.ReferenceIdeal.Read.val_main_v29 (F := Ideal) (m ((c : Thread nD τ).loc main_arg0)) (m ((c : Thread nD τ).loc main_arg1))
        (m ((c : Thread nD τ).loc main_arg2)) (m ((c : Thread nD τ).loc main_arg3)) := by
  funext i
  obtain ⟨b, rfl⟩ : ∃ b : Fin 8192, i = ix1 b := ⟨i 0, eq_ix1 i⟩
  rw [shapeCast_1a_a_apply, Cert.ReferenceIdeal.Stages.nom_at, ← NT_eq, ← NI_eq, ← PT_eq, ← PI_eq]
  rfl

/-- The kernel's denominators are the reference's, column by column. -/
theorem den_cols (c : Dev nD) : shapeCast S8192 (denArr m c) shapeCasts_S1x8192_S8192
    = Cert.ReferenceIdeal.Read.val_main_v32 (F := Ideal) (m ((c : Thread nD τ).loc main_arg0)) (m ((c : Thread nD τ).loc main_arg1))
        (m ((c : Thread nD τ).loc main_arg2)) (m ((c : Thread nD τ).loc main_arg3)) := by
  funext i
  obtain ⟨b, rfl⟩ : ∃ b : Fin 8192, i = ix1 b := ⟨i 0, eq_ix1 i⟩
  rw [shapeCast_1a_a_apply, Cert.ReferenceIdeal.Stages.den_at, ← NT_eq, ← NI_eq]
  rfl

/-- So the two programs' results are one number. -/
theorem result_eq (c : Dev nD) :
    Cert.ReferenceIdeal.Read.val_main_v39 (F := Ideal) (m ((c : Thread nD τ).loc main_arg0)) (m ((c : Thread nD τ).loc main_arg1))
        (m ((c : Thread nD τ).loc main_arg2)) (m ((c : Thread nD τ).loc main_arg3))
      = loss (shapeCast S8192 (nomArr m c) shapeCasts_S1x8192_S8192) (shapeCast S8192 (denArr m c) shapeCasts_S1x8192_S8192) := by
  rw [ref_result, nom_cols, den_cols]

end Cert.KernelIdeal.Host

end
-- ==== Proof.lean ====
/-
  A pixel-wise contrastive loss: a tiled kernel against the whole-matrix computation.

  Both programs normalise the rows of two embeddings `nt`, `ni` (8192 rows of 128 channels) and take, for every
  input row `b`, the numerator `nom b = Σ_a [pt a = pi b] · w a b` and the denominator `den b = Σ_a w a b` over the
  8192 target rows, with weights `w a b = exp (⟨nt a, ni b⟩ / τ)` and integer labels `pt`, `pi`; the result is
  `−(Σ_b log (nom b / (den b + ε))) / 8192`.
  The reference forms the whole weight matrix, divides the similarities by `τ`, masks with the 0/1 matrix `d` of
  differing labels (`(1 − d) · w` for the numerator, `Σ d · w` plus the numerator for the denominator). The kernel
  walks a 4 × 8 grid: for each tile of 2048 input rows it goes through eight tiles of 1024 target rows, multiplies
  the similarities by the reciprocal of `τ`, and adds each tile's masked and plain column sums to two running rows,
  zeroed at the first tile and written back after the eighth.
  Over the extended reals the two agree without any finiteness: a quotient by the nonzero real `τ` is the product
  with `1/τ` (the kernel's constant is named exactly that reciprocal); `(1 − d) · w` is `w` or `0` as the labels
  agree or not, and `d · w + (1 − d) · w = w`, since `0 · x = 0` and `1 · x = x` for every extended real; and a sum over
  8192 rows is the same taken in eight blocks of 1024, addition being commutative and associative there.
-/
import proofs.«161251_j68083821576868_2_alg».proof.Defs
import proofs.«161251_j68083821576868_2_alg».proof.Proof.Gen.Kernel
import proofs.«161251_j68083821576868_2_alg».proof.Proof.Gen.Kernel.Skeleton
import proofs.«161251_j68083821576868_2_alg».proof.Proof.Gen.Kernel.Launch
import proofs.«161251_j68083821576868_2_alg».proof.Proof.Gen.Kernel.Points
import proofs.«161251_j68083821576868_2_alg».proof.Proof.Gen.Kernel.Frame
import proofs.«161251_j68083821576868_2_alg».proof.Proof.Gen.KernelIdeal
import proofs.«161251_j68083821576868_2_alg».proof.Proof.Gen.KernelIdeal.Skeleton
import proofs.«161251_j68083821576868_2_alg».proof.Proof.Gen.KernelIdeal.Launch
import proofs.«161251_j68083821576868_2_alg».proof.Proof.Gen.KernelIdeal.Points
import proofs.«161251_j68083821576868_2_alg».proof.Proof.Gen.KernelIdeal.Frame
import proofs.«161251_j68083821576868_2_alg».proof.Proof.Gen.ReferenceIdeal
import proofs.«161251_j68083821576868_2_alg».proof.Proof.Gen.ReferenceIdeal.Run
import proofs.«161251_j68083821576868_2_alg».proof.Proof.Gen.ReferenceIdeal.Read
import proofs.«161251_j68083821576868_2_alg».proof.Proof.Gen.Pre_finite_inputs
import proofs.«161251_j68083821576868_2_alg».proof.Proof.HostSides
import Idealize.ShloMosaic.Adequacy
import Idealize.ShloMosaic.Init

noncomputable section

namespace Cert.Proof

open Idealize.ShloMosaic Idealize.SL.Sem

/-- The printed kernel runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the kernel's scale constant is named the reciprocal of the reference's
    temperature word, the rational `134217728 / 9395241`. -/
theorem preserves : Cert.preserves_Kernel_KernelIdeal :=
  IdealRules.named_const.statement Cert.KernelIdeal.κ "inv_tau" .f32 0x41649249#32 ((134217728 / 9395241 : ℝ) : EReal) rfl

/-- From memories that agree on the arguments both programs end with the same loss. -/
theorem algebraic : Cert.algebraic_KernelIdeal_ReferenceIdeal := by
  intro m ρ m' ρ' _ hagree
  refine ⟨_, Cert.KernelIdeal.Host.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v39_eq, (hagree c).1, (hagree c).2.1, (hagree c).2.2.1, (hagree c).2.2.2]
  exact Cert.KernelIdeal.Host.result_eq m c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
